-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x48x48 : Shape := ⟨4, ![8, 128, 48, 48]⟩
abbrev S_ : Shape := ⟨0, ![]⟩

class Facts : Prop where
  bcast_S_S8x128x48x48 : S_.BroadcastsInDim S8x128x48x48 (![] : Fin 0 → Fin S8x128x48x48.rank)
  reducesTo_S8x128x48x48_S_d0_1_2_3 : S8x128x48x48.ReducesTo [0, 1, 2, 3] S_
  h_S_ : 0 < S_.numel

variable [Facts]

def fn_part1 {F : FTy → Type} [FloatOps F] (main_v13 : IVec S_ 1) (main_v16 : IVec S8x128x48x48 1) : IVec S_ 1 :=
  let main_c_5 : IVec S_ 1 := constantI S_ 1 1#1
  let main_v17 : IVec S_ 1 := (fun x v => Host.reduce IntOp.andi x v reducesTo_S8x128x48x48_S_d0_1_2_3 h_S_) main_v16 main_c_5
  let main_v18 : IVec S_ 1 := andi main_v13 main_v17
  main_v18

def fn {F : FTy → Type} [FloatOps F] (main_arg0 : FVec F S8x128x48x48 .f32) (main_arg1 : FVec F S8x128x48x48 .f32) (main_arg2 : FVec F S8x128x48x48 .f32) (main_arg3 : FVec F S8x128x48x48 .f32) : IVec S_ 1 :=
  let main_v0 : FVec F S8x128x48x48 .f32 := Host.absf main_arg0
  let main_cst : FVec F S_ .f32 := constant S_ .f32 0x7F800000#32
  let main_v1 : FVec F S8x128x48x48 .f32 := broadcastInDim S8x128x48x48 ![] bcast_S_S8x128x48x48 main_cst
  let main_v2 : IVec S8x128x48x48 1 := cmpf .olt main_v0 main_v1
  let main_c : IVec S_ 1 := constantI S_ 1 1#1
  let main_v3 : IVec S_ 1 := (fun x v => Host.reduce IntOp.andi x v reducesTo_S8x128x48x48_S_d0_1_2_3 h_S_) main_v2 main_c
  let main_v4 : FVec F S8x128x48x48 .f32 := Host.absf main_arg1
  let main_cst_0 : FVec F S_ .f32 := constant S_ .f32 0x7F800000#32
  let main_v5 : FVec F S8x128x48x48 .f32 := broadcastInDim S8x128x48x48 ![] bcast_S_S8x128x48x48 main_cst_0
  let main_v6 : IVec S8x128x48x48 1 := cmpf .olt main_v4 main_v5
  let main_c_1 : IVec S_ 1 := constantI S_ 1 1#1
  let main_v7 : IVec S_ 1 := (fun x v => Host.reduce IntOp.andi x v reducesTo_S8x128x48x48_S_d0_1_2_3 h_S_) main_v6 main_c_1
  let main_v8 : IVec S_ 1 := andi main_v3 main_v7
  let main_v9 : FVec F S8x128x48x48 .f32 := Host.absf main_arg2
  let main_cst_2 : FVec F S_ .f32 := constant S_ .f32 0x7F800000#32
  let main_v10 : FVec F S8x128x48x48 .f32 := broadcastInDim S8x128x48x48 ![] bcast_S_S8x128x48x48 main_cst_2
  let main_v11 : IVec S8x128x48x48 1 := cmpf .olt main_v9 main_v10
  let main_c_3 : IVec S_ 1 := constantI S_ 1 1#1
  let main_v12 : IVec S_ 1 := (fun x v => Host.reduce IntOp.andi x v reducesTo_S8x128x48x48_S_d0_1_2_3 h_S_) main_v11 main_c_3
  let main_v13 : IVec S_ 1 := andi main_v8 main_v12
  let main_v14 : FVec F S8x128x48x48 .f32 := Host.absf main_arg3
  let main_cst_4 : FVec F S_ .f32 := constant S_ .f32 0x7F800000#32
  let main_v15 : FVec F S8x128x48x48 .f32 := broadcastInDim S8x128x48x48 ![] bcast_S_S8x128x48x48 main_cst_4
  let main_v16 : IVec S8x128x48x48 1 := cmpf .olt main_v14 main_v15
  fn_part1 (F := F) main_v13 main_v16
-- ==== Kernel.lean ====
abbrev S8x128x48x48 : Shape := ⟨4, ![8, 128, 48, 48]⟩
abbrev S8x128x2304 : Shape := ⟨3, ![8, 128, 2304]⟩
abbrev S_ : Shape := ⟨0, ![]⟩
abbrev S8x2304 : Shape := ⟨2, ![8, 2304]⟩
abbrev S8x1x2304 : Shape := ⟨3, ![8, 1, 2304]⟩
abbrev S16x128x2304 : Shape := ⟨3, ![16, 128, 2304]⟩
abbrev S16x1x1 : Shape := ⟨3, ![16, 1, 1]⟩
abbrev S1x128x256 : Shape := ⟨3, ![1, 128, 256]⟩
abbrev S1x1x1 : Shape := ⟨3, ![1, 1, 1]⟩
abbrev S1x1 : Shape := ⟨2, ![1, 1]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S1 : Shape := ⟨1, ![1]⟩

abbrev nBuf : Space → Nat
  | .hbm => 59
  | .vmem => 11
  | .smem => 0
  | _ => 0

abbrev bufTy : (tb : Table) → Fin (tcTables nBuf tb) → BufTy
  | .hbm, ⟨0, _⟩ => ⟨S8x128x48x48, .f32⟩
  | .hbm, ⟨1, _⟩ => ⟨S8x128x48x48, .f32⟩
  | .hbm, ⟨2, _⟩ => ⟨S8x128x48x48, .f32⟩
  | .hbm, ⟨3, _⟩ => ⟨S8x128x48x48, .f32⟩
  | .hbm, ⟨4, _⟩ => ⟨S8x128x2304, .f32⟩
  | .hbm, ⟨5, _⟩ => ⟨S8x128x2304, .f32⟩
  | .hbm, ⟨6, _⟩ => ⟨S_, .f32⟩
  | .hbm, ⟨7, _⟩ => ⟨S8x2304, .f32⟩
  | .hbm, ⟨8, _⟩ => ⟨S8x1x2304, .f32⟩
  | .hbm, ⟨9, _⟩ => ⟨S8x1x2304, .f32⟩
  | .hbm, ⟨10, _⟩ => ⟨S_, .f32⟩
  | .hbm, ⟨11, _⟩ => ⟨S8x1x2304, .f32⟩
  | .hbm, ⟨12, _⟩ => ⟨S8x1x2304, .f32⟩
  | .hbm, ⟨13, _⟩ => ⟨S8x128x2304, .f32⟩
  | .hbm, ⟨14, _⟩ => ⟨S8x128x2304, .f32⟩
  | .hbm, ⟨15, _⟩ => ⟨S8x128x2304, .bf16⟩
  | .hbm, ⟨16, _⟩ => ⟨S8x128x2304, .f32⟩
  | .hbm, ⟨17, _⟩ => ⟨S8x128x2304, .f32⟩
  | .hbm, ⟨18, _⟩ => ⟨S_, .f32⟩
  | .hbm, ⟨19, _⟩ => ⟨S8x2304, .f32⟩
  | .hbm, ⟨20, _⟩ => ⟨S8x1x2304, .f32⟩
  | .hbm, ⟨21, _⟩ => ⟨S8x1x2304, .f32⟩
  | .hbm, ⟨22, _⟩ => ⟨S_, .f32⟩
  | .hbm, ⟨23, _⟩ => ⟨S8x1x2304, .f32⟩
  | .hbm, ⟨24, _⟩ => ⟨S8x1x2304, .f32⟩
  | .hbm, ⟨25, _⟩ => ⟨S8x128x2304, .f32⟩
  | .hbm, ⟨26, _⟩ => ⟨S8x128x2304, .f32⟩
  | .hbm, ⟨27, _⟩ => ⟨S8x128x2304, .bf16⟩
  | .hbm, ⟨28, _⟩ => ⟨S8x128x2304, .f32⟩
  | .hbm, ⟨29, _⟩ => ⟨S8x128x2304, .f32⟩
  | .hbm, ⟨30, _⟩ => ⟨S_, .f32⟩
  | .hbm, ⟨31, _⟩ => ⟨S8x2304, .f32⟩
  | .hbm, ⟨32, _⟩ => ⟨S8x1x2304, .f32⟩
  | .hbm, ⟨33, _⟩ => ⟨S8x1x2304, .f32⟩
  | .hbm, ⟨34, _⟩ => ⟨S_, .f32⟩
  | .hbm, ⟨35, _⟩ => ⟨S8x1x2304, .f32⟩
  | .hbm, ⟨36, _⟩ => ⟨S8x1x2304, .f32⟩
  | .hbm, ⟨37, _⟩ => ⟨S8x128x2304, .f32⟩
  | .hbm, ⟨38, _⟩ => ⟨S8x128x2304, .f32⟩
  | .hbm, ⟨39, _⟩ => ⟨S8x128x2304, .bf16⟩
  | .hbm, ⟨40, _⟩ => ⟨S8x128x2304, .f32⟩
  | .hbm, ⟨41, _⟩ => ⟨S8x128x2304, .f32⟩
  | .hbm, ⟨42, _⟩ => ⟨S_, .f32⟩
  | .hbm, ⟨43, _⟩ => ⟨S8x2304, .f32⟩
  | .hbm, ⟨44, _⟩ => ⟨S8x1x2304, .f32⟩
  | .hbm, ⟨45, _⟩ => ⟨S8x1x2304, .f32⟩
  | .hbm, ⟨46, _⟩ => ⟨S_, .f32⟩
  | .hbm, ⟨47, _⟩ => ⟨S8x1x2304, .f32⟩
  | .hbm, ⟨48, _⟩ => ⟨S8x1x2304, .f32⟩
  | .hbm, ⟨49, _⟩ => ⟨S8x128x2304, .f32⟩
  | .hbm, ⟨50, _⟩ => ⟨S8x128x2304, .f32⟩
  | .hbm, ⟨51, _⟩ => ⟨S8x128x2304, .bf16⟩
  | .hbm, ⟨52, _⟩ => ⟨S16x128x2304, .bf16⟩
  | .hbm, ⟨53, _⟩ => ⟨S16x128x2304, .bf16⟩
  | .hbm, ⟨54, _⟩ => ⟨S16x1x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S8x128x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 9, 9], ![false, false, false]⟩

def k0_cond2 (i : grid0.Coords) : BitVec 1 :=
  let arg1 : BitVec 32 := BitVec.ofNat 32 (i 1).val
  let c8_i32 : BitVec 32 := 8#32
  let v26 : BitVec 1 := Scalar.cmpi .eq arg1 c8_i32
  let arg2 : BitVec 32 := BitVec.ofNat 32 (i 2).val
  let c8_i32_20 : BitVec 32 := 8#32
  let v27 : BitVec 1 := Scalar.cmpi .eq arg2 c8_i32_20
  let v28 : BitVec 1 := Scalar.andi v26 v27
  let v29 : BitVec 32 := Scalar.extui v28
  let c0_i32_21 : BitVec 32 := 0#32
  let v30 : BitVec 1 := Scalar.cmpi .ne v29 c0_i32_21
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S8x128x48x48_S8x128x2304 : S8x128x48x48.ShapeCasts S8x128x2304
  reducesTo_S8x128x2304_S8x2304_d1 : S8x128x2304.ReducesTo [1] S8x2304
  h_S_ : 0 < S_.numel
  bcast_S8x2304_S8x1x2304_0_2 : S8x2304.BroadcastsInDim S8x1x2304 (![0, 2] : Fin 2 → Fin S8x1x2304.rank)
  bcast_S_S8x1x2304 : S_.BroadcastsInDim S8x1x2304 (![] : Fin 0 → Fin S8x1x2304.rank)
  bcast_S8x1x2304_S8x128x2304_0_1_2 : S8x1x2304.BroadcastsInDim S8x128x2304 (![0, 1, 2] : Fin 3 → Fin S8x128x2304.rank)
  bitsLt_bf16_f32 : FTy.bits .bf16 < FTy.bits .f32
  concatenates_S8x128x2304_S8x128x2304_S16x128x2304_d0 : Shape.Concatenates [S8x128x2304, S8x128x2304] S16x128x2304 0
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  dot_S128x256_S128x256_S256x256_0_0_1_1_n_n_wf : DotDims.WF S128x256 S128x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S16x128x2304.size a
  hwx0_0 : ∀ i : grid0.Coords, EltTy.bits .bf16 = 32 ∨ (Rect.block (s := S16x128x2304) S1x128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S16x128x2304.size a
  hwx0_1 : ∀ i : grid0.Coords, EltTy.bits .bf16 = 32 ∨ (Rect.block (s := S16x128x2304) S1x128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S16x128x2304.size a
  hwx0_2 : ∀ i : grid0.Coords, EltTy.bits .bf16 = 32 ∨ (Rect.block (s := S16x128x2304) S1x128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S16x128x2304.size a
  hwx0_3 : ∀ i : grid0.Coords, EltTy.bits .bf16 = 32 ∨ (Rect.block (s := S16x128x2304) S1x128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

def dot_S128x256_S128x256_S256x256_0_0_1_1_n_n : DotDims S128x256 S128x256 S256x256 where
  lhsContracting := [0]
  rhsContracting := [0]
  lhsNonContracting := [1]
  rhsNonContracting := [1]
  lhsBatch := []
  rhsBatch := []
  wf := dot_S128x256_S128x256_S256x256_0_0_1_1_n_n_wf

abbrev win0_0 : Pipeline.Window sig grid0 :=
  Pipeline.Window.ofSpec (Memref.whole main_v40) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x128x48x48 : Shape := ⟨4, ![8, 128, 48, 48]⟩
abbrev S8x128x2304 : Shape := ⟨3, ![8, 128, 2304]⟩
abbrev S_ : Shape := ⟨0, ![]⟩
abbrev S8x2304 : Shape := ⟨2, ![8, 2304]⟩
abbrev S8x1x2304 : Shape := ⟨3, ![8, 1, 2304]⟩
abbrev S8x2304x2304 : Shape := ⟨3, ![8, 2304, 2304]⟩
abbrev S8x1x2304x2304 : Shape := ⟨4, ![8, 1, 2304, 2304]⟩

abbrev nBuf : Space → Nat
  | .hbm => 69
  | .vmem => 0
  | .smem => 0
  | _ => 0

abbrev bufTy : (tb : Table) → Fin (tcTables nBuf tb) → BufTy
  | .hbm, ⟨0, _⟩ => ⟨S8x128x48x48, .f32⟩
  | .hbm, ⟨1, _⟩ => ⟨S8x128x48x48, .f32⟩
  | .hbm, ⟨2, _⟩ => ⟨S8x128x48x48, .f32⟩
  | .hbm, ⟨3, _⟩ => ⟨S8x128x48x48, .f32⟩
  | .hbm, ⟨4, _⟩ => ⟨S8x128x2304, .f32⟩
  | .hbm, ⟨5, _⟩ => ⟨S8x128x2304, .f32⟩
  | .hbm, ⟨6, _⟩ => ⟨S_, .f32⟩
  | .hbm, ⟨7, _⟩ => ⟨S8x2304, .f32⟩
  | .hbm, ⟨8, _⟩ => ⟨S8x1x2304, .f32⟩
  | .hbm, ⟨9, _⟩ => ⟨S8x1x2304, .f32⟩
  | .hbm, ⟨10, _⟩ => ⟨S_, .f32⟩
  | .hbm, ⟨11, _⟩ => ⟨S8x1x2304, .f32⟩
  | .hbm, ⟨12, _⟩ => ⟨S8x1x2304, .f32⟩
  | .hbm, ⟨13, _⟩ => ⟨S8x128x2304, .f32⟩
  | .hbm, ⟨14, _⟩ => ⟨S8x128x2304, .f32⟩
  | .hbm, ⟨15, _⟩ => ⟨S8x2304x2304, .f32⟩
  | .hbm, ⟨16, _⟩ => ⟨S8x1x2304x2304, .f32⟩
  | .hbm, ⟨17, _⟩ => ⟨S8x128x2304, .f32⟩
  | .hbm, ⟨18, _⟩ => ⟨S8x128x2304, .f32⟩
  | .hbm, ⟨19, _⟩ => ⟨S_, .f32⟩
  | .hbm, ⟨20, _⟩ => ⟨S8x2304, .f32⟩
  | .hbm, ⟨21, _⟩ => ⟨S8x1x2304, .f32⟩
  | .hbm, ⟨22, _⟩ => ⟨S8x1x2304, .f32⟩
  | .hbm, ⟨23, _⟩ => ⟨S_, .f32⟩
  | .hbm, ⟨24, _⟩ => ⟨S8x1x2304, .f32⟩
  | .hbm, ⟨25, _⟩ => ⟨S8x1x2304, .f32⟩
  | .hbm, ⟨26, _⟩ => ⟨S8x128x2304, .f32⟩
  | .hbm, ⟨27, _⟩ => ⟨S8x128x2304, .f32⟩
  | .hbm, ⟨28, _⟩ => ⟨S8x2304x2304, .f32⟩
  | .hbm, ⟨29, _⟩ => ⟨S8x1x2304x2304, .f32⟩
  | .hbm, ⟨30, _⟩ => ⟨S8x1x2304x2304, .f32⟩
  | .hbm, ⟨31, _⟩ => ⟨S8x1x2304x2304, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x128x2304, .f32⟩
  | .hbm, ⟨37, _⟩ => ⟨S8x128x2304, .f32⟩
  | .hbm, ⟨38, _⟩ => ⟨S_, .f32⟩
  | .hbm, ⟨39, _⟩ => ⟨S8x2304, .f32⟩
  | .hbm, ⟨40, _⟩ => ⟨S8x1x2304, .f32⟩
  | .hbm, ⟨41, _⟩ => ⟨S8x1x2304, .f32⟩
  | .hbm, ⟨42, _⟩ => ⟨S_, .f32⟩
  | .hbm, ⟨43, _⟩ => ⟨S8x1x2304, .f32⟩
  | .hbm, ⟨44, _⟩ => ⟨S8x1x2304, .f32⟩
  | .hbm, ⟨45, _⟩ => ⟨S8x128x2304, .f32⟩
  | .hbm, ⟨46, _⟩ => ⟨S8x128x2304, .f32⟩
  | .hbm, ⟨47, _⟩ => ⟨S8x2304x2304, .f32⟩
  | .hbm, ⟨48, _⟩ => ⟨S8x1x2304x2304, .f32⟩
  | .hbm, ⟨49, _⟩ => ⟨S8x128x2304, .f32⟩
  | .hbm, ⟨50, _⟩ => ⟨S8x128x2304, .f32⟩
  | .hbm, ⟨51, _⟩ => ⟨S_, .f32⟩
  | .hbm, ⟨52, _⟩ => ⟨S8x2304, .f32⟩
  | .hbm, ⟨53, _⟩ => ⟨S8x1x2304, .f32⟩
  | .hbm, ⟨54, _⟩ => ⟨S8x1x2304, .f32⟩
  | .hbm, ⟨55, _⟩ => ⟨S_, .f32⟩
  | .hbm, ⟨56, _⟩ => ⟨S8x1x2304, .f32⟩
  | .hbm, ⟨57, _⟩ => ⟨S8x1x2304, .f32⟩
  | .hbm, ⟨58, _⟩ => ⟨S8x128x2304, .f32⟩
  | .hbm, ⟨59, _⟩ => ⟨S8x128x2304, .f32⟩
  | .hbm, ⟨60, _⟩ => ⟨S8x2304x2304, .f32⟩
  | .hbm, ⟨61, _⟩ => ⟨S8x1x2304x2304, .f32⟩
  | .hbm, ⟨62, _⟩ => ⟨S8x1x2304x2304, .f32⟩
  | .hbm, ⟨63, _⟩ => ⟨S8x1x2304x2304, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8x128x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  shapeCasts_S8x128x48x48_S8x128x2304 : S8x128x48x48.ShapeCasts S8x128x2304
  reducesTo_S8x128x2304_S8x2304_d1 : S8x128x2304.ReducesTo [1] S8x2304
  h_S_ : 0 < S_.numel
  bcast_S8x2304_S8x1x2304_0_2 : S8x2304.BroadcastsInDim S8x1x2304 (![0, 2] : Fin 2 → Fin S8x1x2304.rank)
  bcast_S_S8x1x2304 : S_.BroadcastsInDim S8x1x2304 (![] : Fin 0 → Fin S8x1x2304.rank)
  bcast_S8x1x2304_S8x128x2304_0_1_2 : S8x1x2304.BroadcastsInDim S8x128x2304 (![0, 1, 2] : Fin 3 → Fin S8x128x2304.rank)
  bcast_S8x2304x2304_S8x1x2304x2304_0_2_3 : S8x2304x2304.BroadcastsInDim S8x1x2304x2304 (![0, 2, 3] : Fin 3 → Fin S8x1x2304x2304.rank)
  reducesTo_S8x1x2304x2304_S_d0_1_2_3 : S8x1x2304x2304.ReducesTo [0, 1, 2, 3] S_
  dot_S8x128x2304_S8x128x2304_S8x2304x2304_1_1_2_2_0_0_wf : DotDims.WF S8x128x2304 S8x128x2304 S8x2304x2304 [1] [1] [2] [2] [0] [0]

variable [Facts₀]

def dot_S8x128x2304_S8x128x2304_S8x2304x2304_1_1_2_2_0_0 : DotDims S8x128x2304 S8x128x2304 S8x2304x2304 where
  lhsContracting := [1]
  rhsContracting := [1]
  lhsNonContracting := [2]
  rhsNonContracting := [2]
  lhsBatch := [0]
  rhsBatch := [0]
  wf := dot_S8x128x2304_S8x128x2304_S8x2304x2304_1_1_2_2_0_0_wf

class Facts : Prop extends Facts₀ where

variable [Facts]
-- ==== Proof.FrameK.Shared.lean ====
/-
  What the three runs of the similarity kernel's body share.

  The grid is 16 x 9 x 9, walked in row-major order: point t has batch t / 81 and tile (t / 9 % 9, t % 9).
  The body zeroes its 1x1 accumulator at the first tile of a batch (t % 81 = 0), adds the tile's sum of
  absolute differences at every tile, and copies the accumulator to the 1x1x1 output block at the last
  tile of the batch (t % 81 = 80). So a point is in one of three cases: first tile, last tile, or neither.
  The output block is idle, and not written back, except at the last tile.
-/
import proofs.«160600_j64037962383465_1_alg».proof.Proof.Gen.Kernel.Launch
import proofs.«160600_j64037962383465_1_alg».proof.Proof.Gen.Kernel.Skeleton
import proofs.«160600_j64037962383465_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The accumulator is zeroed exactly when both tile coordinates are zero. -/
abbrev condFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcondFirst : ∀ t : Fin cfg0.N, condFirst (grid0.coords t) ↔ t.val % 81 = 0 :=
  (by decide +kernel : ∀ t : Fin grid0.N, condFirst (grid0.coords t) ↔ t.val % 81 = 0)

/-- The accumulator is copied out exactly when both tile coordinates are 8. -/
abbrev condLast (i : grid0.Coords) : Prop := k0_cond2 i = 1#1
theorem hcondLast : ∀ t : Fin cfg0.N, condLast (grid0.coords t) ↔ t.val % 81 = 80 :=
  (by decide +kernel : ∀ t : Fin grid0.N, condLast (grid0.coords t) ↔ t.val % 81 = 80)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the last tile the output block is idle and is not written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
/-- At the last tile it is live. -/
theorem live4 : ∀ t : Fin cfg0.N, condLast (grid0.coords t) → cfg0.idle 4 (grid0.coords t) = false := by decide +kernel

/-! ## The memrefs the body is called with -/

abbrev ms0 (t : Fin cfg0.N) : Memref sig .tc .vmem S1x128x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The 1x1 accumulator: a scoped buffer of the kernel's own, carried from point to point. -/
abbrev accM : Memref sig .tc .vmem S1x1 .f32 := Memref.whole cc0_scratch0
abbrev accV : View sig .tc .vmem S1x1 .f32 := accM.view
/-- One staging buffer of the output block, through which its contents are stated. -/
abbrev outV : View sig .tc .vmem S1x1x1 .f32 := (Memref.whole cc0_stg4_0 : Memref sig .tc .vmem S1x1x1 .f32).view

/-- The invariant between points before anything is known of the accumulator: the accumulator at some contents, and
    the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.FrameK.RunFirst.lean ====
/-
  The body at the first tile of a batch: the accumulator is zeroed, then the tile's sum is added to it; the output block is not touched.
-/
import proofs.«160600_j64037962383465_1_alg».proof.Proof.FrameK.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first tile, from the four input blocks, the output block at any contents `xi` (handed back untouched) and the
    accumulator at anything, the body runs and leaves the accumulator with the pieces `LS` written. -/
noncomputable def runFirst (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : condFirst i) (hc1 : ¬condLast i)
    (x0 x1 x2 x3 : Vec F S1x128x256 .bf16) :
    Σ' (L4 : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi E K => ?run⟩
  case run =>
    simp only [cc0__sim_diff_kernel_eq_skeleton]; unfold cc0__sim_diff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.FrameK.RunMid.lean ====
/-
  The body at a tile that is neither the first nor the last of its batch: the tile's sum is added to the accumulator; the output block is not touched.
-/
import proofs.«160600_j64037962383465_1_alg».proof.Proof.FrameK.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle tile, from the four input blocks, the output block at any contents `xi` (handed back untouched) and the
    accumulator at the contents `xs` the tile before left, the body runs and leaves the accumulator with the pieces `LS` written. -/
noncomputable def runMid (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : ¬condLast i)
    (x0 x1 x2 x3 : Vec F S1x128x256 .bf16) (xs : Vec F S1x1 .f32) :
    Σ' (L4 : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi E K => ?run⟩
  case run =>
    simp only [cc0__sim_diff_kernel_eq_skeleton]; unfold cc0__sim_diff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.FrameK.RunLast.lean ====
/-
  The body at the last tile of a batch: the tile's sum is added to the accumulator, and the accumulator is copied to the output block.
-/
import proofs.«160600_j64037962383465_1_alg».proof.Proof.FrameK.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a last tile, from the four input blocks, the output block at anything and the accumulator at the contents `xs`
    the tile before left, the body runs and leaves the output block with the pieces `L4` and the accumulator with the
    pieces `LS` written. -/
noncomputable def runLast (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨?_, ?_, fun E K => ?run⟩
  case run =>
    simp only [cc0__sim_diff_kernel_eq_skeleton]; unfold cc0__sim_diff_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.FrameK.Frame.lean ====
/-
  The similarity kernel's pipeline, point by point: what the accumulator and the output block hold after each
  grid point, the invariant that carries the accumulator from one point to the next, the proof data, and the
  body obligation.

  Windows 0 and 1 read blocks (b, :, i) and (b, :, j) of ONE array (the normalised student maps), windows 2 and 3
  the same blocks of the normalised teacher maps: each of the two windows on an array holds half of the array's share.
-/
import proofs.«160600_j64037962383465_1_alg».proof.Proof.FrameK.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves -/

/-- The first-tile case's pieces cover the accumulator. -/
theorem scover_first (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : condFirst i) (hc1 : ¬condLast i)
    (x0 x1 x2 x3 : Vec F S1x128x256 .bf16) (y : S1x1.Idx) :
    ∃ pc ∈ (runFirst c i arg3 harg3 arg4 harg4 arg5 harg5 arg6 harg6 arg7 harg7 arg8 harg8 hc0 hc1 x0 x1 x2 x3).2.1, y ∈ pc.1.set :=
  View.cover_of_tiledL (runFirst c i arg3 harg3 arg4 harg4 arg5 harg5 arg6 harg6 arg7 harg7 arg8 harg8 hc0 hc1 x0 x1 x2 x3).2.1 S1x1.size (by sl_kernel_rfl) y
/-- What the first-tile case leaves in the accumulator. -/
def sout_first (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : condFirst i) (hc1 : ¬condLast i)
    (x0 x1 x2 x3 : Vec F S1x128x256 .bf16) : Vec F S1x1 .f32 :=
  accV.read (Elt F) (accV.writes (Elt F) accV.junk (runFirst c i arg3 harg3 arg4 harg4 arg5 harg5 arg6 harg6 arg7 harg7 arg8 harg8 hc0 hc1 x0 x1 x2 x3).2.1)

theorem scover_mid (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : ¬condLast i)
    (x0 x1 x2 x3 : Vec F S1x128x256 .bf16) (xs : Vec F S1x1 .f32) (y : S1x1.Idx) :
    ∃ pc ∈ (runMid c i arg3 harg3 arg4 harg4 arg5 harg5 arg6 harg6 arg7 harg7 arg8 harg8 hc0 hc1 x0 x1 x2 x3 xs).2.1, y ∈ pc.1.set :=
  View.cover_of_tiledL (runMid c i arg3 harg3 arg4 harg4 arg5 harg5 arg6 harg6 arg7 harg7 arg8 harg8 hc0 hc1 x0 x1 x2 x3 xs).2.1 S1x1.size (by sl_kernel_rfl) y
/-- What a middle-tile case leaves in the accumulator. -/
def sout_mid (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : ¬condLast i)
    (x0 x1 x2 x3 : Vec F S1x128x256 .bf16) (xs : Vec F S1x1 .f32) : Vec F S1x1 .f32 :=
  accV.read (Elt F) (accV.writes (Elt F) accV.junk (runMid c i arg3 harg3 arg4 harg4 arg5 harg5 arg6 harg6 arg7 harg7 arg8 harg8 hc0 hc1 x0 x1 x2 x3 xs).2.1)

theorem scover_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) (y : S1x1.Idx) :
    ∃ pc ∈ (runLast c i arg3 harg3 arg4 harg4 arg5 harg5 arg6 harg6 arg7 harg7 arg8 harg8 hc0 hc1 x0 x1 x2 x3 xs).2.1, y ∈ pc.1.set :=
  View.cover_of_tiledL (runLast c i arg3 harg3 arg4 harg4 arg5 harg5 arg6 harg6 arg7 harg7 arg8 harg8 hc0 hc1 x0 x1 x2 x3 xs).2.1 S1x1.size (by sl_kernel_rfl) y
/-- What the last-tile case leaves in the accumulator. -/
def sout_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) : Vec F S1x1 .f32 :=
  accV.read (Elt F) (accV.writes (Elt F) accV.junk (runLast c i arg3 harg3 arg4 harg4 arg5 harg5 arg6 harg6 arg7 harg7 arg8 harg8 hc0 hc1 x0 x1 x2 x3 xs).2.1)
theorem cover_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) (y : S1x1x1.Idx) :
    ∃ pc ∈ (runLast c i arg3 harg3 arg4 harg4 arg5 harg5 arg6 harg6 arg7 harg7 arg8 harg8 hc0 hc1 x0 x1 x2 x3 xs).1, y ∈ pc.1.set :=
  View.cover_of_tiledL (runLast c i arg3 harg3 arg4 harg4 arg5 harg5 arg6 harg6 arg7 harg7 arg8 harg8 hc0 hc1 x0 x1 x2 x3 xs).1 S1x1x1.size (by sl_kernel_rfl) y
/-- What the last-tile case leaves in the output block. -/
def out_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) : Vec F S1x1x1 .f32 :=
  outV.read (Elt F) (outV.writes (Elt F) outV.junk (runLast c i arg3 harg3 arg4 harg4 arg5 harg5 arg6 harg6 arg7 harg7 arg8 harg8 hc0 hc1 x0 x1 x2 x3 xs).1)

/-! ## The accumulation -/

/-- What the output block's staging buffer and the accumulator hold after the body at position `n`: the case the
    closed forms select, run on the point's blocks, the accumulator taken at what position `n - 1` left. Off the last
    tile the output component is a placeholder nothing consults (the block is idle there and not written back). -/
def outsAt (c : Dev nD) : (n : ℕ) → n < cfg0.N → Vec F S1x1x1 .f32 × Vec F S1x1 .f32
  | 0, hn => (outV.junk, sout_first c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 81 = 0 then
      if h1 : (n + 1) % 81 = 80 then
        False.elim (by omega)
      else
        (outV.junk, sout_first c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 81 = 80 then
        (out_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         sout_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outV.junk, sout_mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_first (c : Dev nD) (t : Fin cfg0.N) (h0 : t.val % 81 = 0) (h1 : ¬t.val % 81 = 80) :
    outsAt V c t.val t.isLt = (outV.junk, sout_first c (grid0.coords t) (ms0 t) (hs0 t) (ms1 t) (hs1 t) (ms2 t) (hs2 t) (ms3 t) (hs3 t) (ms4 t) (hs4 t) accM (Memref.isWhole_whole _) ((hcondFirst t).mpr h0) (fun h => h1 ((hcondLast t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt_mid (c : Dev nD) (t : Fin cfg0.N) (h0 : ¬t.val % 81 = 0) (h1 : ¬t.val % 81 = 80) :
    outsAt V c t.val t.isLt = (outV.junk, sout_mid c (grid0.coords t) (ms0 t) (hs0 t) (ms1 t) (hs1 t) (ms2 t) (hs2 t) (ms3 t) (hs3 t) (ms4 t) (hs4 t) accM (Memref.isWhole_whole _) (fun h => h0 ((hcondFirst t).mp h)) (fun h => h1 ((hcondLast t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 81 = 0) (h1 : t.val % 81 = 80) :
    outsAt V c t.val t.isLt = (out_last c (grid0.coords t) (ms0 t) (hs0 t) (ms1 t) (hs1 t) (ms2 t) (hs2 t) (ms3 t) (hs3 t) (ms4 t) (hs4 t) accM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2,
      sout_last c (grid0.coords t) (ms0 t) (hs0 t) (ms1 t) (hs1 t) (ms2 t) (hs2 t) (ms3 t) (hs3 t) (ms4 t) (hs4 t) accM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulator holds anything; afterwards it holds what the point before left. The
    generator register rides along at some state. -/
def PhiS (c : Dev nD) : (n : ℕ) → n ≤ cfg0.N → sProp 𝕄
  | 0, _ => Pipeline.ΦA spec0 c
  | n + 1, hn => iprop(iprop(owns (c : Thread nD τ) accM fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2)) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2)) ∗ (∃ r, prngReg c r)) := by
  cases n with
  | zero => exact absurd rfl hz
  | succ n => rfl

/-! ## The proof data -/

/-- The arrays as the region finds them; after the body each input's buffer at its block, the output's at what
    `outsAt` says; the invariant `PhiS`; nothing owed. The two windows on one array hold half its share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]

/-- Input window 0's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the four input buffers hold their blocks; the closed forms say which case the point is
    in; the invariant hands the body the accumulator at what the point before left (at anything at the very first
    point) and takes it back at this point's contents; off the last tile the output block's buffer is handed back
    untouched, at the last tile it is covered by the case's store. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 1296 := lt_of_lt_of_eq t.isLt (show cfg0.N = 1296 from N_0)
  by_cases h0 : t.val % 81 = 0
  · by_cases h1 : t.val % 81 = 80
    · exfalso; omega
    · -- first tile of a batch
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4 t (fun h => h1 ((hcondLast t).mp h))) (noFlush4 t (fun h => h1 ((hcondLast t).mp h)))]
      rw [outsAt_first V c t h0 h1]
      unfold sout_first; (try dsimp only)
      by_cases hz : t.val = 0
      · rw [PhiS_castSucc V c t, PhiS_zero V c _ _ hz, PhiA_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (scover_first c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (scover_first c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 81 = 80
    · -- last tile of a batch
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t ((hcondLast t).mpr h1)], after4]
      rw [outsAt_last V c t h0 h1]
      unfold out_last sout_last; (try dsimp only)
      have hz : t.val ≠ 0 := by omega
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((hcondFirst t).mp h)) ((hcondLast t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scover_last c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last c _ _ _ _ _ _ _ _ _ _ _ _ _ _ _ _ _ _ _ _)
    · -- a tile that is neither
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4 t (fun h => h1 ((hcondLast t).mp h))) (noFlush4 t (fun h => h1 ((hcondLast t).mp h)))]
      rw [outsAt_mid V c t h0 h1]
      unfold sout_mid; (try dsimp only)
      have hz : t.val ≠ 0 := by omega
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((hcondFirst t).mp h)) (fun h => h1 ((hcondLast t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back: the accumulator's named contents are forgotten. -/
theorem hout (c : Dev nD) : (dat V c).Φ (Fin.last cfg0.N) ⊢ Pipeline.ΦA spec0 c := by
  have ht : (Fin.last cfg0.N).val ≠ 0 := by rw [Fin.val_last]; have : cfg0.N = 1296 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨HS, Hg⟩
  isplitl [HS]
  · iexists _; iexact HS
  iexact Hg

end Cert.Kernel.Hand

end
-- ==== Proof.FrameK.Launch.lean ====
/-
  The run of the whole program: the host operations before the call, the call, the host operations after it.

  Between segments a core holds every unscoped buffer at a valuation. At the call's entry the three arrays the
  windows name are taken out of that state: the normalised student maps and the normalised teacher maps are each
  read by two windows, so each is split into two half shares; the [16,1,1] result is held whole. At the exit the
  halves are put back together — the input arrays unchanged — and the result array is at what the pipeline wrote.
-/
import proofs.«160600_j64037962383465_1_alg».proof.Proof.FrameK.Frame
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the call (the call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- What the pipeline leaves in the [16,1,1] result array. -/
def outArr (c : Dev nD) : Buf (Elt F) ((c : Thread nD τ).loc main_v42) := (dat (V1 m ρ) c).arrAt 4 cfg0.N
/-- At the call's exit: the result array at what the pipeline wrote, every other buffer as at entry. -/
def W2 (c : Dev nD) : Valuation τ sig (Elt F) := fun b =>
  if h : Proc.devRef .tc main_v42 = b then cast (congrArg (fun b' : DevRef τ sig => b'.ty.Contents (Elt F)) h) (outArr m ρ c) else W1 m ρ c b
theorem W2_out (c : Dev nD) : W2 m ρ c (Proc.devRef .tc main_v42) = outArr m ρ c := by
  unfold W2; rw [dif_pos rfl]; rfl
theorem W2_of_ne (c : Dev nD) (b : Ref sig .tc) (hb : main_v42 ≠ b) : W2 m ρ c (Proc.devRef .tc b) = W1 m ρ c (Proc.devRef .tc b) := by
  unfold W2; rw [dif_neg]; exact fun e => hb (Proc.devRef_injective _ e)
abbrev V2 : (c : Dev nD) → (b : Ref sig .tc) → Buf (Elt F) ((c : Thread nD τ).loc b) := fun c b => W2 m ρ c b
/-- After the host operations after the call (the end). -/
abbrev W3 : Dev nD → Valuation τ sig (Elt F) := fun c => StableHlo.after hostOps1 (W2 m ρ c)

/-! ## The windows' arrays in and out of the unscoped buffers -/

/-- The buffers behind the windows' arrays are three. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v40) ↦{fullShare} V main_v40) ∗ (((c : Thread nD τ).loc main_v41) ↦{fullShare} V main_v41)
          ∗ (((c : Thread nD τ).loc main_v42) ↦{fullShare} V main_v42)) := by
  unfold Pipeline.arrBufs
  exact bigSep_eq_bigSepL_of_eq [main_v40, main_v41, main_v42] (by decide) (by decide) _

/-! The shares: the two windows on one array hold its two halves; the output's array is held whole. -/
theorem share0 (V : (c : Dev nD) → (b : Ref sig .tc) → Buf (Elt F) ((c : Thread nD τ).loc b)) (c : Dev nD) : (dat V c).share 0 = fullShare.left := rfl
theorem share1 (V : (c : Dev nD) → (b : Ref sig .tc) → Buf (Elt F) ((c : Thread nD τ).loc b)) (c : Dev nD) : (dat V c).share 1 = fullShare.right := rfl
theorem share2 (V : (c : Dev nD) → (b : Ref sig .tc) → Buf (Elt F) ((c : Thread nD τ).loc b)) (c : Dev nD) : (dat V c).share 2 = fullShare.left := rfl
theorem share3 (V : (c : Dev nD) → (b : Ref sig .tc) → Buf (Elt F) ((c : Thread nD τ).loc b)) (c : Dev nD) : (dat V c).share 3 = fullShare.right := rfl
theorem share4 (V : (c : Dev nD) → (b : Ref sig .tc) → Buf (Elt F) ((c : Thread nD τ).loc b)) (c : Dev nD) : (dat V c).share 4 = fullShare := rfl

/-- The input windows leave their arrays as they found them. -/
theorem arrAt_in0 (c : Dev nD) (n : ℕ) : (dat (V1 m ρ) c).arrAt 0 n = V1 m ρ c main_v40 :=
  ((dat (V1 m ρ) c).arrAt_in 0 rfl n).trans (A_eq (V1 m ρ) c 0)
theorem arrAt_in1 (c : Dev nD) (n : ℕ) : (dat (V1 m ρ) c).arrAt 1 n = V1 m ρ c main_v40 :=
  ((dat (V1 m ρ) c).arrAt_in 1 rfl n).trans (A_eq (V1 m ρ) c 1)
theorem arrAt_in2 (c : Dev nD) (n : ℕ) : (dat (V1 m ρ) c).arrAt 2 n = V1 m ρ c main_v41 :=
  ((dat (V1 m ρ) c).arrAt_in 2 rfl n).trans (A_eq (V1 m ρ) c 2)
theorem arrAt_in3 (c : Dev nD) (n : ℕ) : (dat (V1 m ρ) c).arrAt 3 n = V1 m ρ c main_v41 :=
  ((dat (V1 m ρ) c).arrAt_in 3 rfl n).trans (A_eq (V1 m ρ) c 3)
/-- Before the first point the result array holds what the region found there. -/
theorem arrAt4_zero (c : Dev nD) : (dat (V1 m ρ) c).arrAt 4 0 = V1 m ρ c main_v42 :=
  (show (dat (V1 m ρ) c).arrAt 4 0 = (dat (V1 m ρ) c).A 4 from rfl).trans (A_eq (V1 m ρ) c 4)

/-- A whole buffer is its two half shares, and back. -/
theorem halves (ℓ : Loc nD τ sig) (f : Buf (Elt F) ℓ) :
    ((ℓ ↦{fullShare} f : sProp 𝕄)) ⊣⊢ iprop((ℓ ↦{fullShare.left} f) ∗ (ℓ ↦{fullShare.right} f)) :=
  pointsTo_share (PosShare.mem_left_op_right fullShare)

set_option maxHeartbeats 1000000 in
/-- ENTRY: the unscoped buffers at the entry contents are the pipeline's arrays — each shared array dealt to its two
    windows in halves — and the rest. -/
theorem entry_split (c : Dev nD) :
    (unscopedBufs (Ix := Unit) (Name := ℕ) (U := UR sig nD τ) (Lvl := ℕ) c (V1 m ρ c) : sProp 𝕄)
      ⊢ iprop((dat (V1 m ρ) c).arrays ((dat (V1 m ρ) c).arrAt · 0) ∗ Pipeline.unscopedRest spec0 c (V1 m ρ c)) := by
  rw [Pipeline.unscopedBufs_split₀ cfgs 0 winFacts₀0.arr_unscoped c (V1 m ρ c)]
  refine sep_mono ?_ .rfl
  rw [arrBufs_eq]
  unfold Dat.arrays
  rw [bigSep_W0]
  simp only [Memref.view_whole, View.set_whole, share0, share1, share2, share3, share4,
    arrAt_in0, arrAt_in1, arrAt_in2, arrAt_in3, arrAt4_zero]
  refine BIBase.Entails.trans (BIClass.sep_mono (halves _ _).1 (BIClass.sep_mono (halves _ _).1 .rfl)) ?_
  iintro ⟨⟨Ha, Hb⟩, ⟨Hc, Hd⟩, He⟩
  isplitl [Ha]; · iexact Ha
  isplitl [Hb]; · iexact Hb
  isplitl [Hc]; · iexact Hc
  isplitl [Hd]; · iexact Hd
  iexact He

set_option maxHeartbeats 1000000 in
/-- EXIT: the pipeline's arrays at their final contents — the halves of each shared array, unchanged, put back
    together; the result array at what the pipeline wrote — and the rest are the unscoped buffers at the exit contents. -/
theorem exit_join (c : Dev nD) :
    iprop((dat (V1 m ρ) c).arrays ((dat (V1 m ρ) c).arrAt · cfg0.N) ∗ Pipeline.unscopedRest spec0 c (V1 m ρ c))
      ⊢ (unscopedBufs (Ix := Unit) (Name := ℕ) (U := UR sig nD τ) (Lvl := ℕ) c (V2 m ρ c) : sProp 𝕄) := by
  rw [Pipeline.unscopedBufs_split₀ cfgs 0 winFacts₀0.arr_unscoped c (V2 m ρ c)]
  refine sep_mono ?_ (Entails.of_eq ?_)
  · rw [arrBufs_eq]
    unfold Dat.arrays
    rw [bigSep_W0]
    simp only [Memref.view_whole, View.set_whole, share0, share1, share2, share3, share4,
      arrAt_in0, arrAt_in1, arrAt_in2, arrAt_in3]
    rw [show V2 m ρ c main_v40 = V1 m ρ c main_v40 from W2_of_ne m ρ c main_v40 (by decide),
      show V2 m ρ c main_v41 = V1 m ρ c main_v41 from W2_of_ne m ρ c main_v41 (by decide),
      show V2 m ρ c main_v42 = (dat (V1 m ρ) c).arrAt 4 cfg0.N from W2_out m ρ c]
    refine BIBase.Entails.trans ?_ (BIClass.sep_mono (halves _ _).2 (BIClass.sep_mono (halves _ _).2 .rfl))
    iintro ⟨Ha, Hb, Hc, Hd, He⟩
    isplitl [Ha Hb]
    · isplitl [Ha]; · iexact Ha
      iexact Hb
    isplitl [Hc Hd]
    · isplitl [Hc]; · iexact Hc
      iexact Hd
    iexact He
  · unfold Pipeline.unscopedRest
    refine bigSep_congr fun b hb => ?_
    have hb' : b ∉ Finset.univ.image (Pipeline.arrRef spec0) := (Finset.mem_sdiff.mp hb).2
    rw [show V2 m ρ c b = V1 m ρ c b from W2_of_ne m ρ c b fun e => hb' (Finset.mem_image.mpr ⟨4, Finset.mem_univ _, e⟩)]

/-! ## The proof data family and the thread state -/

abbrev adm : (p : Fin 1) → (pcfgs (F := F) p).Adm := fun p => (cfgs p).toPCfg_adm
/-- The one pipeline's proof data, at the call's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and that the core owes nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the end contents, the generator register at some state. -/
abbrev Tₙ (c : Dev nD) : sProp 𝕄 := iprop(StableHlo.held (c : Thread nD τ) (Pipeline.ucRefs τ sig) (W3 m ρ c) ∗ ∃ r, prngReg c r)

/-! ## The call as a segment -/

set_option backward.isDefEq.respectTransparency.types false in
/-- The call over the thread state: entered from every unscoped buffer at the entry contents, left at the exit
    contents; the generator register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ [Hub]
    · iexact Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine BIBase.Entails.trans (hout (V1 m ρ) c) ?_
    unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    in every final state each unscoped buffer holds the end contents `W3`: the launch contents carried through the
    host operations before the call, the call's result array, and the host operations after it. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched

No host operation writes an argument array, and the call changes only its result array. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The program runs to the end, nothing faulting, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.Kernel.Hand

end
-- ==== Proof.FrameKI.Shared.lean ====
/-
  What the three runs of the similarity kernel's body share.

  The grid is 16 x 9 x 9, walked in row-major order: point t has batch t / 81 and tile (t / 9 % 9, t % 9).
  The body zeroes its 1x1 accumulator at the first tile of a batch (t % 81 = 0), adds the tile's sum of
  absolute differences at every tile, and copies the accumulator to the 1x1x1 output block at the last
  tile of the batch (t % 81 = 80). So a point is in one of three cases: first tile, last tile, or neither.
  The output block is idle, and not written back, except at the last tile.
-/
import proofs.«160600_j64037962383465_1_alg».proof.Proof.Gen.KernelIdeal.Launch
import proofs.«160600_j64037962383465_1_alg».proof.Proof.Gen.KernelIdeal.Skeleton
import proofs.«160600_j64037962383465_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The accumulator is zeroed exactly when both tile coordinates are zero. -/
abbrev condFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcondFirst : ∀ t : Fin cfg0.N, condFirst (grid0.coords t) ↔ t.val % 81 = 0 :=
  (by decide +kernel : ∀ t : Fin grid0.N, condFirst (grid0.coords t) ↔ t.val % 81 = 0)

/-- The accumulator is copied out exactly when both tile coordinates are 8. -/
abbrev condLast (i : grid0.Coords) : Prop := k0_cond2 i = 1#1
theorem hcondLast : ∀ t : Fin cfg0.N, condLast (grid0.coords t) ↔ t.val % 81 = 80 :=
  (by decide +kernel : ∀ t : Fin grid0.N, condLast (grid0.coords t) ↔ t.val % 81 = 80)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the last tile the output block is idle and is not written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
/-- At the last tile it is live. -/
theorem live4 : ∀ t : Fin cfg0.N, condLast (grid0.coords t) → cfg0.idle 4 (grid0.coords t) = false := by decide +kernel

/-! ## The memrefs the body is called with -/

abbrev ms0 (t : Fin cfg0.N) : Memref sig .tc .vmem S1x128x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The 1x1 accumulator: a scoped buffer of the kernel's own, carried from point to point. -/
abbrev accM : Memref sig .tc .vmem S1x1 .f32 := Memref.whole cc0_scratch0
abbrev accV : View sig .tc .vmem S1x1 .f32 := accM.view
/-- One staging buffer of the output block, through which its contents are stated. -/
abbrev outV : View sig .tc .vmem S1x1x1 .f32 := (Memref.whole cc0_stg4_0 : Memref sig .tc .vmem S1x1x1 .f32).view

/-- The invariant between points before anything is known of the accumulator: the accumulator at some contents, and
    the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.FrameKI.RunFirst.lean ====
/-
  The body at the first tile of a batch: the accumulator is zeroed, then the tile's sum is added to it; the output block is not touched.
-/
import proofs.«160600_j64037962383465_1_alg».proof.Proof.FrameKI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first tile, from the four input blocks, the output block at any contents `xi` (handed back untouched) and the
    accumulator at anything, the body runs and leaves the accumulator with the pieces `LS` written. -/
noncomputable def runFirst (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : condFirst i) (hc1 : ¬condLast i)
    (x0 x1 x2 x3 : Vec F S1x128x256 .bf16) :
    Σ' (L4 : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi E K => ?run⟩
  case run =>
    simp only [cc0__sim_diff_kernel_eq_skeleton]; unfold cc0__sim_diff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.FrameKI.RunMid.lean ====
/-
  The body at a tile that is neither the first nor the last of its batch: the tile's sum is added to the accumulator; the output block is not touched.
-/
import proofs.«160600_j64037962383465_1_alg».proof.Proof.FrameKI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle tile, from the four input blocks, the output block at any contents `xi` (handed back untouched) and the
    accumulator at the contents `xs` the tile before left, the body runs and leaves the accumulator with the pieces `LS` written. -/
noncomputable def runMid (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : ¬condLast i)
    (x0 x1 x2 x3 : Vec F S1x128x256 .bf16) (xs : Vec F S1x1 .f32) :
    Σ' (L4 : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi E K => ?run⟩
  case run =>
    simp only [cc0__sim_diff_kernel_eq_skeleton]; unfold cc0__sim_diff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.FrameKI.RunLast.lean ====
/-
  The body at the last tile of a batch: the tile's sum is added to the accumulator, and the accumulator is copied to the output block.
-/
import proofs.«160600_j64037962383465_1_alg».proof.Proof.FrameKI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a last tile, from the four input blocks, the output block at anything and the accumulator at the contents `xs`
    the tile before left, the body runs and leaves the output block with the pieces `L4` and the accumulator with the
    pieces `LS` written. -/
noncomputable def runLast (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨?_, ?_, fun E K => ?run⟩
  case run =>
    simp only [cc0__sim_diff_kernel_eq_skeleton]; unfold cc0__sim_diff_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.FrameKI.Frame.lean ====
/-
  The similarity kernel's pipeline, point by point: what the accumulator and the output block hold after each
  grid point, the invariant that carries the accumulator from one point to the next, the proof data, and the
  body obligation.

  Windows 0 and 1 read blocks (b, :, i) and (b, :, j) of ONE array (the normalised student maps), windows 2 and 3
  the same blocks of the normalised teacher maps: each of the two windows on an array holds half of the array's share.
-/
import proofs.«160600_j64037962383465_1_alg».proof.Proof.FrameKI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves -/

/-- The first-tile case's pieces cover the accumulator. -/
theorem scover_first (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : condFirst i) (hc1 : ¬condLast i)
    (x0 x1 x2 x3 : Vec F S1x128x256 .bf16) (y : S1x1.Idx) :
    ∃ pc ∈ (runFirst c i arg3 harg3 arg4 harg4 arg5 harg5 arg6 harg6 arg7 harg7 arg8 harg8 hc0 hc1 x0 x1 x2 x3).2.1, y ∈ pc.1.set :=
  View.cover_of_tiledL (runFirst c i arg3 harg3 arg4 harg4 arg5 harg5 arg6 harg6 arg7 harg7 arg8 harg8 hc0 hc1 x0 x1 x2 x3).2.1 S1x1.size (by sl_kernel_rfl) y
/-- What the first-tile case leaves in the accumulator. -/
def sout_first (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : condFirst i) (hc1 : ¬condLast i)
    (x0 x1 x2 x3 : Vec F S1x128x256 .bf16) : Vec F S1x1 .f32 :=
  accV.read (Elt F) (accV.writes (Elt F) accV.junk (runFirst c i arg3 harg3 arg4 harg4 arg5 harg5 arg6 harg6 arg7 harg7 arg8 harg8 hc0 hc1 x0 x1 x2 x3).2.1)

theorem scover_mid (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : ¬condLast i)
    (x0 x1 x2 x3 : Vec F S1x128x256 .bf16) (xs : Vec F S1x1 .f32) (y : S1x1.Idx) :
    ∃ pc ∈ (runMid c i arg3 harg3 arg4 harg4 arg5 harg5 arg6 harg6 arg7 harg7 arg8 harg8 hc0 hc1 x0 x1 x2 x3 xs).2.1, y ∈ pc.1.set :=
  View.cover_of_tiledL (runMid c i arg3 harg3 arg4 harg4 arg5 harg5 arg6 harg6 arg7 harg7 arg8 harg8 hc0 hc1 x0 x1 x2 x3 xs).2.1 S1x1.size (by sl_kernel_rfl) y
/-- What a middle-tile case leaves in the accumulator. -/
def sout_mid (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : ¬condLast i)
    (x0 x1 x2 x3 : Vec F S1x128x256 .bf16) (xs : Vec F S1x1 .f32) : Vec F S1x1 .f32 :=
  accV.read (Elt F) (accV.writes (Elt F) accV.junk (runMid c i arg3 harg3 arg4 harg4 arg5 harg5 arg6 harg6 arg7 harg7 arg8 harg8 hc0 hc1 x0 x1 x2 x3 xs).2.1)

theorem scover_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) (y : S1x1.Idx) :
    ∃ pc ∈ (runLast c i arg3 harg3 arg4 harg4 arg5 harg5 arg6 harg6 arg7 harg7 arg8 harg8 hc0 hc1 x0 x1 x2 x3 xs).2.1, y ∈ pc.1.set :=
  View.cover_of_tiledL (runLast c i arg3 harg3 arg4 harg4 arg5 harg5 arg6 harg6 arg7 harg7 arg8 harg8 hc0 hc1 x0 x1 x2 x3 xs).2.1 S1x1.size (by sl_kernel_rfl) y
/-- What the last-tile case leaves in the accumulator. -/
def sout_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) : Vec F S1x1 .f32 :=
  accV.read (Elt F) (accV.writes (Elt F) accV.junk (runLast c i arg3 harg3 arg4 harg4 arg5 harg5 arg6 harg6 arg7 harg7 arg8 harg8 hc0 hc1 x0 x1 x2 x3 xs).2.1)
theorem cover_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) (y : S1x1x1.Idx) :
    ∃ pc ∈ (runLast c i arg3 harg3 arg4 harg4 arg5 harg5 arg6 harg6 arg7 harg7 arg8 harg8 hc0 hc1 x0 x1 x2 x3 xs).1, y ∈ pc.1.set :=
  View.cover_of_tiledL (runLast c i arg3 harg3 arg4 harg4 arg5 harg5 arg6 harg6 arg7 harg7 arg8 harg8 hc0 hc1 x0 x1 x2 x3 xs).1 S1x1x1.size (by sl_kernel_rfl) y
/-- What the last-tile case leaves in the output block. -/
def out_last (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) : Vec F S1x1x1 .f32 :=
  outV.read (Elt F) (outV.writes (Elt F) outV.junk (runLast c i arg3 harg3 arg4 harg4 arg5 harg5 arg6 harg6 arg7 harg7 arg8 harg8 hc0 hc1 x0 x1 x2 x3 xs).1)

/-! ## The accumulation -/

/-- What the output block's staging buffer and the accumulator hold after the body at position `n`: the case the
    closed forms select, run on the point's blocks, the accumulator taken at what position `n - 1` left. Off the last
    tile the output component is a placeholder nothing consults (the block is idle there and not written back). -/
def outsAt (c : Dev nD) : (n : ℕ) → n < cfg0.N → Vec F S1x1x1 .f32 × Vec F S1x1 .f32
  | 0, hn => (outV.junk, sout_first c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 81 = 0 then
      if h1 : (n + 1) % 81 = 80 then
        False.elim (by omega)
      else
        (outV.junk, sout_first c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 81 = 80 then
        (out_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         sout_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outV.junk, sout_mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_first (c : Dev nD) (t : Fin cfg0.N) (h0 : t.val % 81 = 0) (h1 : ¬t.val % 81 = 80) :
    outsAt V c t.val t.isLt = (outV.junk, sout_first c (grid0.coords t) (ms0 t) (hs0 t) (ms1 t) (hs1 t) (ms2 t) (hs2 t) (ms3 t) (hs3 t) (ms4 t) (hs4 t) accM (Memref.isWhole_whole _) ((hcondFirst t).mpr h0) (fun h => h1 ((hcondLast t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt_mid (c : Dev nD) (t : Fin cfg0.N) (h0 : ¬t.val % 81 = 0) (h1 : ¬t.val % 81 = 80) :
    outsAt V c t.val t.isLt = (outV.junk, sout_mid c (grid0.coords t) (ms0 t) (hs0 t) (ms1 t) (hs1 t) (ms2 t) (hs2 t) (ms3 t) (hs3 t) (ms4 t) (hs4 t) accM (Memref.isWhole_whole _) (fun h => h0 ((hcondFirst t).mp h)) (fun h => h1 ((hcondLast t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 81 = 0) (h1 : t.val % 81 = 80) :
    outsAt V c t.val t.isLt = (out_last c (grid0.coords t) (ms0 t) (hs0 t) (ms1 t) (hs1 t) (ms2 t) (hs2 t) (ms3 t) (hs3 t) (ms4 t) (hs4 t) accM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2,
      sout_last c (grid0.coords t) (ms0 t) (hs0 t) (ms1 t) (hs1 t) (ms2 t) (hs2 t) (ms3 t) (hs3 t) (ms4 t) (hs4 t) accM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulator holds anything; afterwards it holds what the point before left. The
    generator register rides along at some state. -/
def PhiS (c : Dev nD) : (n : ℕ) → n ≤ cfg0.N → sProp 𝕄
  | 0, _ => Pipeline.ΦA spec0 c
  | n + 1, hn => iprop(iprop(owns (c : Thread nD τ) accM fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2)) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2)) ∗ (∃ r, prngReg c r)) := by
  cases n with
  | zero => exact absurd rfl hz
  | succ n => rfl

/-! ## The proof data -/

/-- The arrays as the region finds them; after the body each input's buffer at its block, the output's at what
    `outsAt` says; the invariant `PhiS`; nothing owed. The two windows on one array hold half its share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]

/-- Input window 0's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the four input buffers hold their blocks; the closed forms say which case the point is
    in; the invariant hands the body the accumulator at what the point before left (at anything at the very first
    point) and takes it back at this point's contents; off the last tile the output block's buffer is handed back
    untouched, at the last tile it is covered by the case's store. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 1296 := lt_of_lt_of_eq t.isLt (show cfg0.N = 1296 from N_0)
  by_cases h0 : t.val % 81 = 0
  · by_cases h1 : t.val % 81 = 80
    · exfalso; omega
    · -- first tile of a batch
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4 t (fun h => h1 ((hcondLast t).mp h))) (noFlush4 t (fun h => h1 ((hcondLast t).mp h)))]
      rw [outsAt_first V c t h0 h1]
      unfold sout_first; (try dsimp only)
      by_cases hz : t.val = 0
      · rw [PhiS_castSucc V c t, PhiS_zero V c _ _ hz, PhiA_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (scover_first c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (scover_first c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 81 = 80
    · -- last tile of a batch
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t ((hcondLast t).mpr h1)], after4]
      rw [outsAt_last V c t h0 h1]
      unfold out_last sout_last; (try dsimp only)
      have hz : t.val ≠ 0 := by omega
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((hcondFirst t).mp h)) ((hcondLast t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scover_last c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last c _ _ _ _ _ _ _ _ _ _ _ _ _ _ _ _ _ _ _ _)
    · -- a tile that is neither
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4 t (fun h => h1 ((hcondLast t).mp h))) (noFlush4 t (fun h => h1 ((hcondLast t).mp h)))]
      rw [outsAt_mid V c t h0 h1]
      unfold sout_mid; (try dsimp only)
      have hz : t.val ≠ 0 := by omega
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((hcondFirst t).mp h)) (fun h => h1 ((hcondLast t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back: the accumulator's named contents are forgotten. -/
theorem hout (c : Dev nD) : (dat V c).Φ (Fin.last cfg0.N) ⊢ Pipeline.ΦA spec0 c := by
  have ht : (Fin.last cfg0.N).val ≠ 0 := by rw [Fin.val_last]; have : cfg0.N = 1296 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨HS, Hg⟩
  isplitl [HS]
  · iexists _; iexact HS
  iexact Hg

end Cert.KernelIdeal.Hand

end
-- ==== Proof.FrameKI.Launch.lean ====
/-
  The run of the whole program: the host operations before the call, the call, the host operations after it.

  Between segments a core holds every unscoped buffer at a valuation. At the call's entry the three arrays the
  windows name are taken out of that state: the normalised student maps and the normalised teacher maps are each
  read by two windows, so each is split into two half shares; the [16,1,1] result is held whole. At the exit the
  halves are put back together — the input arrays unchanged — and the result array is at what the pipeline wrote.
-/
import proofs.«160600_j64037962383465_1_alg».proof.Proof.FrameKI.Frame
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the call (the call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- What the pipeline leaves in the [16,1,1] result array. -/
def outArr (c : Dev nD) : Buf (Elt F) ((c : Thread nD τ).loc main_v42) := (dat (V1 m ρ) c).arrAt 4 cfg0.N
/-- At the call's exit: the result array at what the pipeline wrote, every other buffer as at entry. -/
def W2 (c : Dev nD) : Valuation τ sig (Elt F) := fun b =>
  if h : Proc.devRef .tc main_v42 = b then cast (congrArg (fun b' : DevRef τ sig => b'.ty.Contents (Elt F)) h) (outArr m ρ c) else W1 m ρ c b
theorem W2_out (c : Dev nD) : W2 m ρ c (Proc.devRef .tc main_v42) = outArr m ρ c := by
  unfold W2; rw [dif_pos rfl]; rfl
theorem W2_of_ne (c : Dev nD) (b : Ref sig .tc) (hb : main_v42 ≠ b) : W2 m ρ c (Proc.devRef .tc b) = W1 m ρ c (Proc.devRef .tc b) := by
  unfold W2; rw [dif_neg]; exact fun e => hb (Proc.devRef_injective _ e)
abbrev V2 : (c : Dev nD) → (b : Ref sig .tc) → Buf (Elt F) ((c : Thread nD τ).loc b) := fun c b => W2 m ρ c b
/-- After the host operations after the call (the end). -/
abbrev W3 : Dev nD → Valuation τ sig (Elt F) := fun c => StableHlo.after hostOps1 (W2 m ρ c)

/-! ## The windows' arrays in and out of the unscoped buffers -/

/-- The buffers behind the windows' arrays are three. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v40) ↦{fullShare} V main_v40) ∗ (((c : Thread nD τ).loc main_v41) ↦{fullShare} V main_v41)
          ∗ (((c : Thread nD τ).loc main_v42) ↦{fullShare} V main_v42)) := by
  unfold Pipeline.arrBufs
  exact bigSep_eq_bigSepL_of_eq [main_v40, main_v41, main_v42] (by decide) (by decide) _

/-! The shares: the two windows on one array hold its two halves; the output's array is held whole. -/
theorem share0 (V : (c : Dev nD) → (b : Ref sig .tc) → Buf (Elt F) ((c : Thread nD τ).loc b)) (c : Dev nD) : (dat V c).share 0 = fullShare.left := rfl
theorem share1 (V : (c : Dev nD) → (b : Ref sig .tc) → Buf (Elt F) ((c : Thread nD τ).loc b)) (c : Dev nD) : (dat V c).share 1 = fullShare.right := rfl
theorem share2 (V : (c : Dev nD) → (b : Ref sig .tc) → Buf (Elt F) ((c : Thread nD τ).loc b)) (c : Dev nD) : (dat V c).share 2 = fullShare.left := rfl
theorem share3 (V : (c : Dev nD) → (b : Ref sig .tc) → Buf (Elt F) ((c : Thread nD τ).loc b)) (c : Dev nD) : (dat V c).share 3 = fullShare.right := rfl
theorem share4 (V : (c : Dev nD) → (b : Ref sig .tc) → Buf (Elt F) ((c : Thread nD τ).loc b)) (c : Dev nD) : (dat V c).share 4 = fullShare := rfl

/-- The input windows leave their arrays as they found them. -/
theorem arrAt_in0 (c : Dev nD) (n : ℕ) : (dat (V1 m ρ) c).arrAt 0 n = V1 m ρ c main_v40 :=
  ((dat (V1 m ρ) c).arrAt_in 0 rfl n).trans (A_eq (V1 m ρ) c 0)
theorem arrAt_in1 (c : Dev nD) (n : ℕ) : (dat (V1 m ρ) c).arrAt 1 n = V1 m ρ c main_v40 :=
  ((dat (V1 m ρ) c).arrAt_in 1 rfl n).trans (A_eq (V1 m ρ) c 1)
theorem arrAt_in2 (c : Dev nD) (n : ℕ) : (dat (V1 m ρ) c).arrAt 2 n = V1 m ρ c main_v41 :=
  ((dat (V1 m ρ) c).arrAt_in 2 rfl n).trans (A_eq (V1 m ρ) c 2)
theorem arrAt_in3 (c : Dev nD) (n : ℕ) : (dat (V1 m ρ) c).arrAt 3 n = V1 m ρ c main_v41 :=
  ((dat (V1 m ρ) c).arrAt_in 3 rfl n).trans (A_eq (V1 m ρ) c 3)
/-- Before the first point the result array holds what the region found there. -/
theorem arrAt4_zero (c : Dev nD) : (dat (V1 m ρ) c).arrAt 4 0 = V1 m ρ c main_v42 :=
  (show (dat (V1 m ρ) c).arrAt 4 0 = (dat (V1 m ρ) c).A 4 from rfl).trans (A_eq (V1 m ρ) c 4)

/-- A whole buffer is its two half shares, and back. -/
theorem halves (ℓ : Loc nD τ sig) (f : Buf (Elt F) ℓ) :
    ((ℓ ↦{fullShare} f : sProp 𝕄)) ⊣⊢ iprop((ℓ ↦{fullShare.left} f) ∗ (ℓ ↦{fullShare.right} f)) :=
  pointsTo_share (PosShare.mem_left_op_right fullShare)

set_option maxHeartbeats 1000000 in
/-- ENTRY: the unscoped buffers at the entry contents are the pipeline's arrays — each shared array dealt to its two
    windows in halves — and the rest. -/
theorem entry_split (c : Dev nD) :
    (unscopedBufs (Ix := Unit) (Name := ℕ) (U := UR sig nD τ) (Lvl := ℕ) c (V1 m ρ c) : sProp 𝕄)
      ⊢ iprop((dat (V1 m ρ) c).arrays ((dat (V1 m ρ) c).arrAt · 0) ∗ Pipeline.unscopedRest spec0 c (V1 m ρ c)) := by
  rw [Pipeline.unscopedBufs_split₀ cfgs 0 winFacts₀0.arr_unscoped c (V1 m ρ c)]
  refine sep_mono ?_ .rfl
  rw [arrBufs_eq]
  unfold Dat.arrays
  rw [bigSep_W0]
  simp only [Memref.view_whole, View.set_whole, share0, share1, share2, share3, share4,
    arrAt_in0, arrAt_in1, arrAt_in2, arrAt_in3, arrAt4_zero]
  refine BIBase.Entails.trans (BIClass.sep_mono (halves _ _).1 (BIClass.sep_mono (halves _ _).1 .rfl)) ?_
  iintro ⟨⟨Ha, Hb⟩, ⟨Hc, Hd⟩, He⟩
  isplitl [Ha]; · iexact Ha
  isplitl [Hb]; · iexact Hb
  isplitl [Hc]; · iexact Hc
  isplitl [Hd]; · iexact Hd
  iexact He

set_option maxHeartbeats 1000000 in
/-- EXIT: the pipeline's arrays at their final contents — the halves of each shared array, unchanged, put back
    together; the result array at what the pipeline wrote — and the rest are the unscoped buffers at the exit contents. -/
theorem exit_join (c : Dev nD) :
    iprop((dat (V1 m ρ) c).arrays ((dat (V1 m ρ) c).arrAt · cfg0.N) ∗ Pipeline.unscopedRest spec0 c (V1 m ρ c))
      ⊢ (unscopedBufs (Ix := Unit) (Name := ℕ) (U := UR sig nD τ) (Lvl := ℕ) c (V2 m ρ c) : sProp 𝕄) := by
  rw [Pipeline.unscopedBufs_split₀ cfgs 0 winFacts₀0.arr_unscoped c (V2 m ρ c)]
  refine sep_mono ?_ (Entails.of_eq ?_)
  · rw [arrBufs_eq]
    unfold Dat.arrays
    rw [bigSep_W0]
    simp only [Memref.view_whole, View.set_whole, share0, share1, share2, share3, share4,
      arrAt_in0, arrAt_in1, arrAt_in2, arrAt_in3]
    rw [show V2 m ρ c main_v40 = V1 m ρ c main_v40 from W2_of_ne m ρ c main_v40 (by decide),
      show V2 m ρ c main_v41 = V1 m ρ c main_v41 from W2_of_ne m ρ c main_v41 (by decide),
      show V2 m ρ c main_v42 = (dat (V1 m ρ) c).arrAt 4 cfg0.N from W2_out m ρ c]
    refine BIBase.Entails.trans ?_ (BIClass.sep_mono (halves _ _).2 (BIClass.sep_mono (halves _ _).2 .rfl))
    iintro ⟨Ha, Hb, Hc, Hd, He⟩
    isplitl [Ha Hb]
    · isplitl [Ha]; · iexact Ha
      iexact Hb
    isplitl [Hc Hd]
    · isplitl [Hc]; · iexact Hc
      iexact Hd
    iexact He
  · unfold Pipeline.unscopedRest
    refine bigSep_congr fun b hb => ?_
    have hb' : b ∉ Finset.univ.image (Pipeline.arrRef spec0) := (Finset.mem_sdiff.mp hb).2
    rw [show V2 m ρ c b = V1 m ρ c b from W2_of_ne m ρ c b fun e => hb' (Finset.mem_image.mpr ⟨4, Finset.mem_univ _, e⟩)]

/-! ## The proof data family and the thread state -/

abbrev adm : (p : Fin 1) → (pcfgs (F := F) p).Adm := fun p => (cfgs p).toPCfg_adm
/-- The one pipeline's proof data, at the call's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and that the core owes nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the end contents, the generator register at some state. -/
abbrev Tₙ (c : Dev nD) : sProp 𝕄 := iprop(StableHlo.held (c : Thread nD τ) (Pipeline.ucRefs τ sig) (W3 m ρ c) ∗ ∃ r, prngReg c r)

/-! ## The call as a segment -/

set_option backward.isDefEq.respectTransparency.types false in
/-- The call over the thread state: entered from every unscoped buffer at the entry contents, left at the exit
    contents; the generator register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ [Hub]
    · iexact Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine BIBase.Entails.trans (hout (V1 m ρ) c) ?_
    unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    in every final state each unscoped buffer holds the end contents `W3`: the launch contents carried through the
    host operations before the call, the call's result array, and the host operations after it. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched

No host operation writes an argument array, and the call changes only its result array. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The program runs to the end, nothing faulting, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.KernelIdeal.Hand

end
-- ==== Proof.FrameKI.Pieces.lean ====
/-
  What each of the body's three cases leaves, as payload terms, and the accumulator after each grid point as a chain
  of the tile sums.

  A case's run found a list of pieces (stores) written to the 1x1 accumulator; since they cover it, reading the
  accumulator back after those writes is reading the canonical function of the piece list, and for a buffer of one
  element written whole at offset zero that function is the last store's payload. A load that follows a store of
  the same run reads that store's payload back.
-/
import proofs.«160600_j64037962383465_1_alg».proof.Proof.FrameKI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the accumulator at the tile's sum added to what it held: the one covering store's payload,
    whose loads read the whole buffers. -/
theorem sout_mid_eq (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : ¬condLast i)
    (x0 x1 x2 x3 : Vec F S1x128x256 .bf16) (xs : Vec F S1x1 .f32) :
    sout_mid c i arg3 harg3 arg4 harg4 arg5 harg5 arg6 harg6 arg7 harg7 arg8 harg8 hc0 hc1 x0 x1 x2 x3 xs = k0_pay3 x0 x1 x2 x3 xs := by
  unfold sout_mid
  rw [View.read_writes_eq_canon _ _ _ (scover_mid c i arg3 harg3 arg4 harg4 arg5 harg5 arg6 harg6 arg7 harg7 arg8 harg8 hc0 hc1 x0 x1 x2 x3 xs)]
  unfold runMid
  dsimp only
  rw [View.canon_unit_zero (S := S1x1) hz2]
  simp only [View.readAt_eq_ld, harg3.read_unread, harg4.read_unread, harg5.read_unread, harg6.read_unread, harg8.read_unread,
    View.ld_unit_zero (S := S1x128x256) hz3, View.ld_unit_zero (S := S1x1) hz2, shapeCast_self]

/-- The first tile of a batch stores zero, reads it back, and leaves the tile's sum added to that zero: the later of
    its two covering stores, whose accumulator operand is the load of the earlier one. -/
theorem sout_first_eq (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : condFirst i) (hc1 : ¬condLast i)
    (x0 x1 x2 x3 : Vec F S1x128x256 .bf16) :
    sout_first c i arg3 harg3 arg4 harg4 arg5 harg5 arg6 harg6 arg7 harg7 arg8 harg8 hc0 hc1 x0 x1 x2 x3 = k0_pay3 x0 x1 x2 x3 (k0_pay2 (F := F)) := by
  unfold sout_first
  rw [View.read_writes_eq_canon _ _ _ (scover_first c i arg3 harg3 arg4 harg4 arg5 harg5 arg6 harg6 arg7 harg7 arg8 harg8 hc0 hc1 x0 x1 x2 x3)]
  unfold runFirst
  dsimp only
  sl_unfold_words
  rw [View.canon_cons_unit_zero (S := S1x1) hz2, View.readCov_unit_zero (S := S1x1) _ hz2]
  simp only [View.readAt_eq_ld, harg3.read_unread, harg4.read_unread, harg5.read_unread, harg6.read_unread,
    View.ld_unit_zero (S := S1x128x256) hz3, shapeCast_self]

/-- The last tile of a batch leaves the accumulator as a middle tile does: the copy to the output block comes after
    the accumulator's one covering store and writes nothing to it. -/
theorem sout_last_eq (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) :
    sout_last c i arg3 harg3 arg4 harg4 arg5 harg5 arg6 harg6 arg7 harg7 arg8 harg8 hc0 hc1 x0 x1 x2 x3 xs = k0_pay3 x0 x1 x2 x3 xs := by
  unfold sout_last
  rw [View.read_writes_eq_canon _ _ _ (scover_last c i arg3 harg3 arg4 harg4 arg5 harg5 arg6 harg6 arg7 harg7 arg8 harg8 hc0 hc1 x0 x1 x2 x3 xs)]
  unfold runLast
  dsimp only
  sl_unfold_words
  rw [View.canon_unit_zero (S := S1x1) hz2]
  simp only [View.readAt_eq_ld, harg3.read_unread, harg4.read_unread, harg5.read_unread, harg6.read_unread, harg8.read_unread,
    View.ld_unit_zero (S := S1x128x256) hz3, View.ld_unit_zero (S := S1x1) hz2, shapeCast_self]

/-- At the last tile the output block receives the accumulator as the tile's own store left it, recast to rank three:
    the block's one covering store, whose operand is the load of the accumulator after that store. -/
theorem out_last_eq (c : Dev nD) (i : grid0.Coords) (arg3 : Memref sig .tc .vmem S1x128x256 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x1x1 .f32) (harg7 : arg7.IsWhole) (arg8 : Memref sig .tc .vmem S1x1 .f32) (harg8 : arg8.IsWhole) (hc0 : ¬condFirst i) (hc1 : condLast i)
    (x0 x1 x2 x3 : Vec F S1x128x256 .bf16) (xs : Vec F S1x1 .f32) :
    out_last c i arg3 harg3 arg4 harg4 arg5 harg5 arg6 harg6 arg7 harg7 arg8 harg8 hc0 hc1 x0 x1 x2 x3 xs = k0_pay1 (k0_pay3 x0 x1 x2 x3 xs) := by
  unfold out_last
  rw [View.read_writes_eq_canon _ _ _ (cover_last c i arg3 harg3 arg4 harg4 arg5 harg5 arg6 harg6 arg7 harg7 arg8 harg8 hc0 hc1 x0 x1 x2 x3 xs)]
  unfold runLast
  dsimp only
  sl_unfold_words
  rw [View.canon_unit_zero (S := S1x1x1) hz3, View.readCov_unit_zero (S := S1x1) _ hz2]
  simp only [View.readAt_eq_ld, harg3.read_unread, harg4.read_unread, harg5.read_unread, harg6.read_unread, harg8.read_unread,
    View.ld_unit_zero (S := S1x128x256) hz3, View.ld_unit_zero (S := S1x1) hz2, shapeCast_self]

/-! ## The accumulator as a chain -/

/-- The accumulator after point `n`: the point's tile sum added to zero at the first tile of a batch, and to what
    the point before left at every other tile. -/
def accAt (c : Dev nD) : (n : ℕ) → n < cfg0.N → Vec F S1x1 .f32
  | 0, h => k0_pay3 (iblk V c 0 ⟨0, h⟩) (iblk V c 1 ⟨0, h⟩) (iblk V c 2 ⟨0, h⟩) (iblk V c 3 ⟨0, h⟩) (k0_pay2 (F := F))
  | n + 1, h => k0_pay3 (iblk V c 0 ⟨n + 1, h⟩) (iblk V c 1 ⟨n + 1, h⟩) (iblk V c 2 ⟨n + 1, h⟩) (iblk V c 3 ⟨n + 1, h⟩)
      (if (n + 1) % 81 = 0 then k0_pay2 (F := F) else accAt c n (Nat.lt_of_succ_lt h))

theorem accAt_zero (c : Dev nD) (h : 0 < cfg0.N) :
    accAt V c 0 h = k0_pay3 (iblk V c 0 ⟨0, h⟩) (iblk V c 1 ⟨0, h⟩) (iblk V c 2 ⟨0, h⟩) (iblk V c 3 ⟨0, h⟩) (k0_pay2 (F := F)) := rfl

theorem accAt_succ (c : Dev nD) (n : ℕ) (h : n + 1 < cfg0.N) :
    accAt V c (n + 1) h = k0_pay3 (iblk V c 0 ⟨n + 1, h⟩) (iblk V c 1 ⟨n + 1, h⟩) (iblk V c 2 ⟨n + 1, h⟩) (iblk V c 3 ⟨n + 1, h⟩)
      (if (n + 1) % 81 = 0 then k0_pay2 (F := F) else accAt V c n (Nat.lt_of_succ_lt h)) := rfl

/-- What the accumulator holds after point `n` is the chain: by induction on the point, each point in the case its
    position within the batch of 81 tiles selects. -/
theorem outsAt_acc (c : Dev nD) : ∀ (n : ℕ) (h : n < cfg0.N), (outsAt V c n h).2 = accAt V c n h
  | 0, h => by
    have h0 : (⟨0, h⟩ : Fin cfg0.N).val % 81 = 0 := Nat.zero_mod _
    have h1 : ¬(⟨0, h⟩ : Fin cfg0.N).val % 81 = 80 := by dsimp only; omega
    rw [outsAt_first V c ⟨0, h⟩ h0 h1]
    dsimp only
    rw [sout_first_eq, accAt_zero]
  | n + 1, h => by
    have hN : cfg0.N = 1296 := N_0
    by_cases h0 : (n + 1) % 81 = 0
    · have h1 : ¬(n + 1) % 81 = 80 := by omega
      rw [outsAt_first V c ⟨n + 1, h⟩ h0 h1]
      dsimp only
      rw [sout_first_eq, accAt_succ, if_pos h0]
    · by_cases h1 : (n + 1) % 81 = 80
      · rw [outsAt_last V c ⟨n + 1, h⟩ h0 h1]
        dsimp only
        rw [sout_last_eq, accAt_succ, if_neg h0]
        show k0_pay3 _ _ _ _ (outsAt V c n _).2 = _
        rw [outsAt_acc c n]
      · rw [outsAt_mid V c ⟨n + 1, h⟩ h0 h1]
        dsimp only
        rw [sout_mid_eq, accAt_succ, if_neg h0]
        show k0_pay3 _ _ _ _ (outsAt V c n _).2 = _
        rw [outsAt_acc c n]

/-- At the last tile of a batch the output block receives the chain's value there, recast to rank three. -/
theorem outsAt_out (c : Dev nD) (t : Fin cfg0.N) (h1 : t.val % 81 = 80) :
    (outsAt V c t.val t.isLt).1 = k0_pay1 (accAt V c t.val t.isLt) := by
  have h0 : ¬t.val % 81 = 0 := by omega
  obtain ⟨n, hn⟩ := t
  cases n with
  | zero => exact absurd (Nat.zero_mod _) h0
  | succ n =>
    rw [outsAt_last V c ⟨n + 1, hn⟩ h0 h1]
    dsimp only
    rw [out_last_eq, accAt_succ, if_neg h0]
    show k0_pay1 (k0_pay3 _ _ _ _ (outsAt V c n _).2) = _
    rw [outsAt_acc V c n]

end Cert.KernelIdeal.Hand

end
-- ==== Proof.FrameKI.Blocks.lean ====
/-
  The four input windows' blocks read at an index of the arrays they are cut from, and the result array after
  the pipeline.

  The grid is 16 x 9 x 9 walked row-major: point t has batch t / 81, row tile t / 9 % 9 and column tile t % 9.
  Windows 0 and 2 read block (batch, 0, row tile) of size [1,128,256] of a [16,128,2304] array, windows 1 and 3
  block (batch, 0, column tile) of the same arrays: element (0, k, r) of a block sits at (batch, k, 256 * tile + r)
  of its array. The result array [16,1,1] receives one element per batch, written back at the batch's last point
  81 * batch + 80, where the output block holds the accumulator's chain recast to rank three.
-/
import proofs.«160600_j64037962383465_1_alg».proof.Proof.FrameKI.Pieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The index maps over the grid -/

/-- The five windows' block indices at every grid point, decided over the 1296 points: the batch on axis 0, zero on
    axis 1, and on axis 2 the row tile (windows 0 and 2), the column tile (windows 1 and 3) or zero (the output). -/
theorem idx_facts : ∀ t : Fin cfg0.N,
    win0_0.index t (0 : Fin 3) = t.val / 81 ∧ win0_0.index t (1 : Fin 3) = 0 ∧ win0_0.index t (2 : Fin 3) = t.val / 9 % 9
    ∧ win0_1.index t (0 : Fin 3) = t.val / 81 ∧ win0_1.index t (1 : Fin 3) = 0 ∧ win0_1.index t (2 : Fin 3) = t.val % 9
    ∧ win0_2.index t (0 : Fin 3) = t.val / 81 ∧ win0_2.index t (1 : Fin 3) = 0 ∧ win0_2.index t (2 : Fin 3) = t.val / 9 % 9
    ∧ win0_3.index t (0 : Fin 3) = t.val / 81 ∧ win0_3.index t (1 : Fin 3) = 0 ∧ win0_3.index t (2 : Fin 3) = t.val % 9
    ∧ win0_4.index t (0 : Fin 3) = t.val / 81 ∧ win0_4.index t (1 : Fin 3) = 0 ∧ win0_4.index t (2 : Fin 3) = 0 :=
  (by decide +kernel : ∀ t : Fin grid0.N, _)

/-- A point's batch is below 16. -/
theorem batch_lt (t : Fin cfg0.N) : t.val / 81 < 16 := by
  have hN : cfg0.N = 1296 := N_0
  have := t.isLt
  omega

/-- An element's column in the array: tile times 256 plus the column inside the tile, for a tile below 9. -/
theorem col_lt (q : ℕ) (hq : q < 9) (r : Fin 256) : 256 * q + r.val < 2304 := by
  have := r.isLt
  omega

/-- The last point of batch `b` is a grid point. -/
theorem last_lt (b : ℕ) (hb : b < 16) : 81 * b + 80 < cfg0.N := by
  have hN : cfg0.N = 1296 := N_0
  omega

/-! ## The input blocks at an index -/

/-- Window 0's block at point `t`: element (0, k, r) is the first array's element (batch, k, 256 * row tile + r). -/
theorem iblk0_apply (c : Dev nD) (t : Fin cfg0.N) (k : Fin 128) (r : Fin 256) :
    iblk V c 0 t (ix3 (0 : Fin 1) k r)
      = V c main_v40 (ix3 (⟨t.val / 81, batch_lt t⟩ : Fin 16) k (⟨256 * (t.val / 9 % 9) + r.val, col_lt _ (Nat.mod_lt _ (by decide)) r⟩ : Fin 2304)) := by
  obtain ⟨e0, e1, e2, -⟩ := idx_facts t
  unfold iblk
  rw [View.read_apply]
  show V c main_v40 (((cfg0.win 0).blk t).view.emb (ix3 (0 : Fin 1) k r)) = _
  congr 1
  funext a
  apply Fin.ext
  match a with
  | ⟨0, _⟩ => show win0_0.index t (0 : Fin 3) * 1 + 1 * 0 = t.val / 81; omega
  | ⟨1, _⟩ => show win0_0.index t (1 : Fin 3) * 128 + 1 * k.val = k.val; omega
  | ⟨2, _⟩ => show win0_0.index t (2 : Fin 3) * 256 + 1 * r.val = 256 * (t.val / 9 % 9) + r.val; omega

/-- Window 1's block at point `t`: element (0, k, r) is the first array's element (batch, k, 256 * column tile + r). -/
theorem iblk1_apply (c : Dev nD) (t : Fin cfg0.N) (k : Fin 128) (r : Fin 256) :
    iblk V c 1 t (ix3 (0 : Fin 1) k r)
      = V c main_v40 (ix3 (⟨t.val / 81, batch_lt t⟩ : Fin 16) k (⟨256 * (t.val % 9) + r.val, col_lt _ (Nat.mod_lt _ (by decide)) r⟩ : Fin 2304)) := by
  obtain ⟨-, -, -, e0, e1, e2, -⟩ := idx_facts t
  unfold iblk
  rw [View.read_apply]
  show V c main_v40 (((cfg0.win 1).blk t).view.emb (ix3 (0 : Fin 1) k r)) = _
  congr 1
  funext a
  apply Fin.ext
  match a with
  | ⟨0, _⟩ => show win0_1.index t (0 : Fin 3) * 1 + 1 * 0 = t.val / 81; omega
  | ⟨1, _⟩ => show win0_1.index t (1 : Fin 3) * 128 + 1 * k.val = k.val; omega
  | ⟨2, _⟩ => show win0_1.index t (2 : Fin 3) * 256 + 1 * r.val = 256 * (t.val % 9) + r.val; omega

/-- Window 2's block at point `t`: element (0, k, r) is the second array's element (batch, k, 256 * row tile + r). -/
theorem iblk2_apply (c : Dev nD) (t : Fin cfg0.N) (k : Fin 128) (r : Fin 256) :
    iblk V c 2 t (ix3 (0 : Fin 1) k r)
      = V c main_v41 (ix3 (⟨t.val / 81, batch_lt t⟩ : Fin 16) k (⟨256 * (t.val / 9 % 9) + r.val, col_lt _ (Nat.mod_lt _ (by decide)) r⟩ : Fin 2304)) := by
  obtain ⟨-, -, -, -, -, -, e0, e1, e2, -⟩ := idx_facts t
  unfold iblk
  rw [View.read_apply]
  show V c main_v41 (((cfg0.win 2).blk t).view.emb (ix3 (0 : Fin 1) k r)) = _
  congr 1
  funext a
  apply Fin.ext
  match a with
  | ⟨0, _⟩ => show win0_2.index t (0 : Fin 3) * 1 + 1 * 0 = t.val / 81; omega
  | ⟨1, _⟩ => show win0_2.index t (1 : Fin 3) * 128 + 1 * k.val = k.val; omega
  | ⟨2, _⟩ => show win0_2.index t (2 : Fin 3) * 256 + 1 * r.val = 256 * (t.val / 9 % 9) + r.val; omega

/-- Window 3's block at point `t`: element (0, k, r) is the second array's element (batch, k, 256 * column tile + r). -/
theorem iblk3_apply (c : Dev nD) (t : Fin cfg0.N) (k : Fin 128) (r : Fin 256) :
    iblk V c 3 t (ix3 (0 : Fin 1) k r)
      = V c main_v41 (ix3 (⟨t.val / 81, batch_lt t⟩ : Fin 16) k (⟨256 * (t.val % 9) + r.val, col_lt _ (Nat.mod_lt _ (by decide)) r⟩ : Fin 2304)) := by
  obtain ⟨-, -, -, -, -, -, -, -, -, e0, e1, e2, -⟩ := idx_facts t
  unfold iblk
  rw [View.read_apply]
  show V c main_v41 (((cfg0.win 3).blk t).view.emb (ix3 (0 : Fin 1) k r)) = _
  congr 1
  funext a
  apply Fin.ext
  match a with
  | ⟨0, _⟩ => show win0_3.index t (0 : Fin 3) * 1 + 1 * 0 = t.val / 81; omega
  | ⟨1, _⟩ => show win0_3.index t (1 : Fin 3) * 128 + 1 * k.val = k.val; omega
  | ⟨2, _⟩ => show win0_3.index t (2 : Fin 3) * 256 + 1 * r.val = 256 * (t.val % 9) + r.val; omega

/-! ## The result array -/

/-- The accumulator's chain at two equal positions. -/
theorem accAt_congr (c : Dev nD) (n n' : ℕ) (h : n < cfg0.N) (h' : n' < cfg0.N) (e : n = n') :
    accAt V c n h = accAt V c n' h' := by
  subst e; rfl

/-- What the result array ends holding: at batch `b` the chain's value at the batch's last point 81 * b + 80, recast to
    rank three, read at its one index. -/
def RES (c : Dev nD) : S16x1x1.Idx → Elt F .f32 := fun i =>
  k0_pay1 (accAt V c (81 * (i 0).val + 80) (last_lt _ (i 0).isLt)) (ix3 (0 : Fin 1) (0 : Fin 1) (0 : Fin 1))

/-- An index of the result array is in point `t`'s block iff each coordinate is in the block's range on its axis. -/
theorem mem_blk4 (t : Fin cfg0.N) (i : S16x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v42).slice (win0_4.rect t)).set ↔ _
  rw [View.set_slice_whole, Rect.mem_set_unit]
  exact Iff.rfl

/-- What a flushing point writes back is its block of `RES`: the point is the last of its batch, its block the batch's
    one element, and the output block there holds the chain's value recast. -/
theorem flushed4_eq (c : Dev nD) (t : Fin cfg0.N) (hf : (cfg0.win 4).flush t = true) :
    (dat V c).flushed 4 t = ((cfg0.win 4).blk t).view.read (Elt F) (RES V c) := by
  have h1 : t.val % 81 = 80 := (flush0_4 t).mp hf
  obtain ⟨-, -, -, -, -, -, -, -, -, -, -, -, e0, e1, e2⟩ := idx_facts t
  show (cfg0.win 4).cut (grid0.coords t) ((dat V c).after 4 t) = _
  rw [after4, outsAt_out V c t h1]
  funext j
  rw [View.read_apply]
  show k0_pay1 (accAt V c t.val t.isLt) ((cfg0.win 4).xinj (grid0.coords t) j)
    = k0_pay1 (accAt V c (81 * ((((cfg0.win 4).blk t).view.emb j) 0).val + 80) _) (ix3 (0 : Fin 1) (0 : Fin 1) (0 : Fin 1))
  have hj0 : (j 0).val < 1 := (j 0).isLt
  have hj1 : (j 1).val < 1 := (j 1).isLt
  have hj2 : (j 2).val < 1 := (j 2).isLt
  have hx : (cfg0.win 4).xinj (grid0.coords t) j = ix3 (0 : Fin 1) (0 : Fin 1) (0 : Fin 1) := by
    funext a
    apply Fin.ext
    match a with
    | ⟨0, _⟩ => show (j 0).val = 0; omega
    | ⟨1, _⟩ => show (j 1).val = 0; omega
    | ⟨2, _⟩ => show (j 2).val = 0; omega
  have hb : ((((cfg0.win 4).blk t).view.emb j) 0).val = t.val / 81 := by
    show win0_4.index t (0 : Fin 3) * 1 + 1 * (j 0).val = t.val / 81
    omega
  rw [hx]
  exact congrArg (fun x => k0_pay1 x (ix3 (0 : Fin 1) (0 : Fin 1) (0 : Fin 1))) (accAt_congr V c _ _ _ _ (by rw [hb]; omega))

/-- The result array after the pipeline holds `RES`: index (b, 0, 0) is covered by the last point of batch `b`. -/
theorem final4 (c : Dev nD) : (dat V c).arrAt 4 cfg0.N = RES V c :=
  (dat V c).arrAt_eq_of_cover 4 (RES V c) (flushed4_eq V c) fun i => by
    have hi0 : (i 0).val < 16 := (i 0).isLt
    have hi1 : (i 1).val < 1 := (i 1).isLt
    have hi2 : (i 2).val < 1 := (i 2).isLt
    have ht : (⟨81 * (i 0).val + 80, last_lt _ hi0⟩ : Fin cfg0.N).val = 81 * (i 0).val + 80 := rfl
    obtain ⟨-, -, -, -, -, -, -, -, -, -, -, -, e0, e1, e2⟩ := idx_facts ⟨81 * (i 0).val + 80, last_lt _ hi0⟩
    refine ⟨⟨81 * (i 0).val + 80, last_lt _ hi0⟩, (flush0_4 _).mpr (by rw [ht]; omega), ?_⟩
    rw [mem_blk4]
    rw [ht] at e0
    intro a
    match a with
    | ⟨0, _⟩ => show win0_4.index _ (0 : Fin 3) * 1 ≤ (i 0).val ∧ (i 0).val < win0_4.index _ (0 : Fin 3) * 1 + 1; omega
    | ⟨1, _⟩ => show win0_4.index _ (1 : Fin 3) * 1 ≤ (i 1).val ∧ (i 1).val < win0_4.index _ (1 : Fin 3) * 1 + 1; omega
    | ⟨2, _⟩ => show win0_4.index _ (2 : Fin 3) * 1 ≤ (i 2).val ∧ (i 2).val < win0_4.index _ (2 : Fin 3) * 1 + 1; omega

/-- The result array at batch `bp`: the chain's value at the batch's last point, recast to rank three. -/
theorem out_apply (c : Dev nD) (bp : Fin 16) :
    (dat V c).arrAt 4 cfg0.N (ix3 bp (0 : Fin 1) (0 : Fin 1))
      = k0_pay1 (accAt V c (81 * bp.val + 80) (last_lt _ bp.isLt)) (ix3 (0 : Fin 1) (0 : Fin 1) (0 : Fin 1)) := by
  rw [final4]
  rfl

end Cert.KernelIdeal.Hand

end
-- ==== Proof.PayIdeal.lean ====
/-
  The kernel body's three stored values read at the ideal instance (a float is an extended real, a vector a function of
  its index): the 1×1 accumulator recast as the 1×1×1 output block is the accumulator, the zero block is zero, and the
  accumulator's update adds to it the tile's sum  ∑ r, ∑ l, | ∑ k, s[k,r]·s'[k,l] − ∑ k, t[k,r]·t'[k,l] |.
-/
import proofs.«160600_j64037962383465_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdeal

open Idealize.ShloMosaic Idealize.ShloMosaic.ValueIdx Idealize.SL.Sem
open Cert.KernelIdeal Cert.KernelIdeal.Gen

/-- The shape 1×1 has one index. -/
theorem idx11 (y z : S1x1.Idx) : y = z := by
  funext a
  match a with
  | ⟨0, _⟩ => exact Subsingleton.elim (α := Fin 1) _ _
  | ⟨1, _⟩ => exact Subsingleton.elim (α := Fin 1) _ _

/-- The zero block: a splat of the zero word, recast 1×1 → 1×1, is zero at its index. -/
theorem pay2_ideal (y : S1x1.Idx) : Cert.KernelIdeal.Gen.k0_pay2 (F := Ideal) y = 0 := by
  unfold Gen.k0_pay2
  refine (congrFun (shapeCast_self _ _) y).trans ?_
  exact Ideal.ofBits_zero_f32

/-- The output block: the 1×1 accumulator recast as 1×1×1 reads the accumulator's one element. -/
theorem pay1_ideal (a : Vec Ideal S1x1 .f32) (y : S1x1x1.Idx) :
    Cert.KernelIdeal.Gen.k0_pay1 (F := Ideal) a y = a (ix2 0 0) := by
  unfold Gen.k0_pay1 shapeCast
  exact congrArg a (idx11 _ _)

/-! ## The matrix product: both operands contract their first axis -/

/-- The dimension numbers of the body's two products: contract axis 0 of both [128,256] operands, keep axis 1 of each. -/
abbrev D : DotDims S128x256 S128x256 S256x256 := dot_S128x256_S128x256_S256x256_0_0_1_1_n_n

/-- The left operand's index at output (r, l) and contraction position q: row q … -/
theorem lhs_0 (j : S256x256.Idx) (q : D.contr.Idx) : (D.lhsIdx j q 0).val = (q ⟨0, by decide⟩).val :=
  D.lhsIdx_val_of_single rfl j q
/-- … column r. -/
theorem lhs_1 (j : S256x256.Idx) (q : D.contr.Idx) : (D.lhsIdx j q 1).val = (j 0).val := by
  unfold DotDims.lhsIdx
  rw [dif_neg (show ¬(1 : Fin S128x256.rank) ∈ D.lhsBatch by decide), dif_pos (show (1 : Fin S128x256.rank) ∈ D.lhsNonContracting by decide)]
  rfl
/-- The right operand's index: row q … -/
theorem rhs_0 (j : S256x256.Idx) (q : D.contr.Idx) : (D.rhsIdx j q 0).val = (q ⟨0, by decide⟩).val :=
  D.rhsIdx_val_of_single rfl j q
/-- … column l. -/
theorem rhs_1 (j : S256x256.Idx) (q : D.contr.Idx) : (D.rhsIdx j q 1).val = (j 1).val := by
  unfold DotDims.rhsIdx
  rw [dif_neg (show ¬(1 : Fin S128x256.rank) ∈ D.rhsBatch by decide), dif_pos (show (1 : Fin S128x256.rank) ∈ D.rhsNonContracting by decide)]
  rfl

/-- The product into a zero accumulator at (r, l): the sum over the 128 rows of A[k, r] · B[k, l]. -/
theorem matmulT_apply (A B : FVec Ideal S128x256 .bf16) (r l : Fin 256) :
    FloatOps.matmul D none A B (constant (F := Ideal) S256x256 .f32 0x00000000#32) (ix2 r l)
      = ∑ k : Fin 128, A (ix2 k r) * B (ix2 k l) := by
  refine (Ideal.matmul_constant_zero_apply D none A B (ix2 r l)).trans ?_
  rw [← Equiv.sum_comp (contrEquiv1 D 128 rfl rfl).symm]
  refine Finset.sum_congr rfl fun k _ => ?_
  have hk := contrEquiv1_symm_val D 128 rfl rfl k
  have el : D.lhsIdx (ix2 r l) ((contrEquiv1 D 128 rfl rfl).symm k) = ix2 k r := funext fun a => Fin.ext (by
    match a with
    | ⟨0, _⟩ => exact (lhs_0 _ _).trans hk
    | ⟨1, _⟩ => exact lhs_1 _ _)
  have er : D.rhsIdx (ix2 r l) ((contrEquiv1 D 128 rfl rfl).symm k) = ix2 k l := funext fun a => Fin.ext (by
    match a with
    | ⟨0, _⟩ => exact (rhs_0 _ _).trans hk
    | ⟨1, _⟩ => exact rhs_1 _ _)
  rw [el, er]

/-! ## The two sums and the recasts between them -/

/-- A 256×256 array summed along axis 1 reads, at r, the sum over l of the array at (r, l). -/
theorem laneSum_apply (src : FVec Ideal S256x256 .f32) (hφ : FKind.Formats .f32)
    (hacc : (0x00000000#32 : BitVec 32) = FKind.add.neutral .f32 hφ) (r : Fin 256) :
    multiReduction (F := Ideal) .add [1] S256 src 0x00000000#32 reduces_S256x256_S256 hφ hacc (ix1 r)
      = ∑ l : Fin 256, src (ix2 r l) := by
  refine (Ideal.multiReduction_add_single src 0x00000000#32 reduces_S256x256_S256 hφ hacc (ix1 r)).trans ?_
  exact Finset.sum_congr rfl fun l _ => congrArg src (funext fun a => Fin.ext (by
    match a with
    | ⟨0, _⟩ => rfl
    | ⟨1, _⟩ => rfl))

/-- A 256×1 column summed along axis 0 reads, at its one index, the sum over r of the column at (r, 0). -/
theorem colSum_apply (src : FVec Ideal S256x1 .f32) (hφ : FKind.Formats .f32)
    (hacc : (0x00000000#32 : BitVec 32) = FKind.add.neutral .f32 hφ) (i : Fin 1) :
    multiReduction (F := Ideal) .add [0] S1 src 0x00000000#32 reduces_S256x1_S1 hφ hacc (ix1 i)
      = ∑ r : Fin 256, src (ix2 r (0 : Fin 1)) := by
  refine (Ideal.multiReduction_add_single src 0x00000000#32 reduces_S256x1_S1 hφ hacc (ix1 i)).trans ?_
  exact Finset.sum_congr rfl fun r _ => congrArg src (funext fun a => Fin.ext (by
    match a with
    | ⟨0, _⟩ => rfl
    | ⟨1, _⟩ => exact congrArg Fin.val (Subsingleton.elim (α := Fin 1) _ _)))

/-- A [256] vector recast as a [256,1] column reads, at (r, c), the vector at r. -/
theorem keepdims_apply {α : Type} (x : S256.Idx → α) (h : S256.ShapeCasts S256x1) (r : Fin 256) (c : Fin 1) :
    shapeCast S256x1 x h (ix2 r c) = x (ix1 r) :=
  shapeCast_apply x h _ _ (by
    have hc : c.val = 0 := by omega
    rw [Shape.rowMajor_val_one, Shape.rowMajor_val_two]
    show r.val = r.val * 1 + c.val
    rw [hc, Nat.mul_one, Nat.add_zero])

/-- The extended reals' absolute value as the ideal instance computes it: the larger of a and −a. -/
def eabs (a : EReal) : EReal := max a (-a)

/-- Its definition, by name. -/
theorem eabs_def (a : EReal) : eabs a = max a (-a) := rfl

/-- The ideal instance's absolute value is it. -/
theorem absf_eq_eabs (a : Ideal .f32) : FloatOps.absf a = eabs a := rfl

/-- The absolute value of a difference of two f32 vectors, at an index. -/
theorem absf_subf_apply {s : Shape} (A B : FVec Ideal s .f32) (j : s.Idx) : absf (subf A B) j = eabs (A j - B j) := rfl

/-- The tile's sum: over the 256×256 positions (r, l) of the tile, the absolute difference of the two products
    ∑ k, x0[0,k,r]·x1[0,k,l] and ∑ k, x2[0,k,r]·x3[0,k,l]. -/
def tileSum (x0 x1 x2 x3 : Vec Ideal S1x128x256 .bf16) : EReal :=
  ∑ r : Fin 256, ∑ l : Fin 256,
    eabs ((∑ k : Fin 128, x0 (ix3 (0 : Fin 1) k r) * x1 (ix3 (0 : Fin 1) k l))
      - (∑ k : Fin 128, x2 (ix3 (0 : Fin 1) k r) * x3 (ix3 (0 : Fin 1) k l)))

/-- One product of the body at (r, l): the [1,128,256] blocks recast as [128,256] matrices, multiplied with the first
    axes contracted, into a zero accumulator. -/
theorem prod_apply (p q : FVec Ideal S1x128x256 .bf16) (r l : Fin 256) :
    matmul dot_S128x256_S128x256_S256x256_0_0_1_1_n_n none
        (shapeCast S128x256 p shapeCasts_S1x128x256_S128x256) (shapeCast S128x256 q shapeCasts_S1x128x256_S128x256)
        (constant (F := Ideal) S256x256 .f32 0x00000000#32) (ix2 r l)
      = ∑ k : Fin 128, p (ix3 (0 : Fin 1) k r) * q (ix3 (0 : Fin 1) k l) :=
  (matmulT_apply _ _ r l).trans (Finset.sum_congr rfl fun k _ =>
    congrArg₂ (· * ·) (shapeCast_1ab_ab_apply p _ k r) (shapeCast_1ab_ab_apply q _ k l))

/-- The accumulator's update: the accumulator plus the tile's sum. -/
theorem pay3_ideal (x0 x1 x2 x3 : Vec Ideal S1x128x256 .bf16) (a : Vec Ideal S1x1 .f32) (y : S1x1.Idx) :
    Cert.KernelIdeal.Gen.k0_pay3 (F := Ideal) x0 x1 x2 x3 a y = a y + tileSum x0 x1 x2 x3 := by
  obtain ⟨u, i, rfl⟩ : ∃ (u i : Fin 1), y = ix2 u i := ⟨y 0, y 1, eq_ix2 y⟩
  unfold Gen.k0_pay3
  refine (congrFun (shapeCast_self _ _) (ix2 u i)).trans ?_
  refine (addf_apply _ _ _).trans ?_
  refine congrArg (a (ix2 u i) + ·) ?_
  refine (shapeCast_a_1a_apply _ _ u i).trans ?_
  refine (colSum_apply _ _ _ i).trans ?_
  unfold tileSum
  refine Finset.sum_congr rfl fun r _ => ?_
  refine (keepdims_apply _ _ r 0).trans ?_
  refine (laneSum_apply _ _ _ r).trans ?_
  refine Finset.sum_congr rfl fun l _ => ?_
  refine (absf_subf_apply _ _ _).trans ?_
  exact congrArg eabs (congrArg₂ (· - ·) (prod_apply x0 x1 r l) (prod_apply x2 x3 r l))

end Cert.KernelIdeal.PayIdeal

end
-- ==== Proof.KernelValue.lean ====
/-
  The kernel's value at the extended reals.

  After tile s of batch b the accumulator holds the sum of the tile sums of tiles 0 … s of that batch: the zero
  stored at the batch's first tile, then one tile sum added per point.
-/
import proofs.«160600_j64037962383465_1_alg».proof.Proof.FrameKI.Pieces
import proofs.«160600_j64037962383465_1_alg».proof.Proof.PayIdeal

set_option maxRecDepth 16384

noncomputable section

namespace Cert.KernelIdeal.Hand

open Cert.KernelIdeal Cert.KernelIdeal.Gen Cert.KernelIdeal.PayIdeal
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The tile sum the body adds at grid position `n` (zero past the grid). -/
def tileAt (c : Dev nD) (n : ℕ) : EReal :=
  if h : n < cfg0.N then tileSum (iblk V c 0 ⟨n, h⟩) (iblk V c 1 ⟨n, h⟩) (iblk V c 2 ⟨n, h⟩) (iblk V c 3 ⟨n, h⟩) else 0

/-- At the first tile of a batch the accumulator ends at that tile's sum. -/
theorem acc_first (c : Dev nD) (n : ℕ) (h : n < cfg0.N) (hn : n % 81 = 0) (y : S1x1.Idx) :
    accAt V c n h y = tileAt V c n := by
  unfold tileAt; rw [dif_pos h]
  cases n with
  | zero => rw [accAt_zero, pay3_ideal, pay2_ideal, zero_add]
  | succ n => rw [accAt_succ, if_pos hn, pay3_ideal, pay2_ideal, zero_add]

/-- At any other tile it ends at what the tile before left plus that tile's sum. -/
theorem acc_next (c : Dev nD) (n : ℕ) (h : n + 1 < cfg0.N) (hn : ¬(n + 1) % 81 = 0) (y : S1x1.Idx) :
    accAt V c (n + 1) h y = accAt V c n (Nat.lt_of_succ_lt h) y + tileAt V c (n + 1) := by
  unfold tileAt; rw [dif_pos h, accAt_succ, if_neg hn, pay3_ideal]

/-- After tile `s` of batch `b`: the sum of the batch's tile sums up to `s`. -/
theorem acc_sum (c : Dev nD) (b : ℕ) (hb : b < 16) (y : S1x1.Idx) :
    ∀ (s : ℕ) (hs : s < 81) (h : 81 * b + s < cfg0.N), accAt V c (81 * b + s) h y = ∑ s' ∈ Finset.range (s + 1), tileAt V c (81 * b + s')
  | 0, _, h => by
    rw [Finset.sum_range_one]
    exact acc_first V c (81 * b + 0) h (by omega) y
  | s + 1, hs, h => by
    rw [Finset.sum_range_succ, ← acc_sum c b hb y s (by omega) (by omega)]
    exact acc_next V c (81 * b + s) h (by omega) y

end Cert.KernelIdeal.Hand

end
-- ==== Proof.HostSide.lean ====
/-
  The kernel program's host operations at the extended reals.

  Before the call: each of the four arguments is flattened to [8,128,2304] and normalised over its channel axis —
  the same chain of operations the reference applies, so it is carried as the reference's own term and never
  opened — then converted (the identity at the extended reals), and the two student maps and the two teacher maps
  are laid end to end along the batch axis into two [16,128,2304] arrays: entry (bp, k, n) is the first map's
  (bp, k, n) for bp < 8 and the second map's (bp - 8, k, n) otherwise.
  After the call: the sixteen entries of the [16,1,1] result are summed and divided by 8 * 2304 * 2304.
-/
import proofs.«160600_j64037962383465_1_alg».proof.Proof.Gen.KernelIdeal.Launch
import proofs.«160600_j64037962383465_1_alg».proof.Proof.Gen.ReferenceIdeal.Read
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.StableHlo Idealize.ShloMosaic.ValueIdx

/-! ## The four operations after the call

The sum of the sixteen per-batch partial sums from a zero initial value, divided by the literal 0x4C220000. -/

/-- The buffer main_v44 after the four operations, as the operations' term of main_v42. -/
theorem v44_eq (W : Valuation τ sig (Elt Ideal)) :
    (StableHlo.after (hostOps1 (F := Ideal)) W (Proc.devRef .tc main_v44) : S_.Idx → EReal)
      = Host.divf (F := Ideal) (Host.reduceAdd (F := Ideal) (φ := .f32) (W (Proc.devRef .tc main_v42) : S16x1x1.Idx → EReal)
          (constant (F := Ideal) S_ .f32 0x00000000#32) reducesTo_S16x1x1_S_d0_1_2 h_S_) (constant (F := Ideal) S_ .f32 0x4C220000#32) := by
  after_results

/-- The sixteen entries of a [16,1,1] array, one per leading coordinate: the two trailing axes have one
    coordinate each. -/
def idx16 : Fin 16 ≃ S16x1x1.Idx where
  toFun bp := ix3 bp (0 : Fin 1) (0 : Fin 1)
  invFun j := (j 0 : Fin 16)
  left_inv _ := rfl
  right_inv j := by
    funext a
    match a with
    | ⟨0, _⟩ => rfl
    | ⟨1, _⟩ => exact Subsingleton.elim (α := Fin 1) _ _
    | ⟨2, _⟩ => exact Subsingleton.elim (α := Fin 1) _ _

/-- A sum over every index of a [16,1,1] array is the sum over its leading coordinate. -/
theorem sum16 (y : S16x1x1.Idx → EReal) :
    ∑ j : S16x1x1.Idx, y j = ∑ bp : Fin 16, y (ix3 bp (0 : Fin 1) (0 : Fin 1)) :=
  (Equiv.sum_comp idx16 y).symm

/-- At the extended reals the sum over every axis from the zero word is the plain sum of the sixteen entries
    (0 + s = s), and the host's quotient is the extended reals' quotient. -/
theorem total16 (y : S16x1x1.Idx → EReal) (i : S_.Idx) :
    Host.divf (F := Ideal) (Host.reduceAdd (F := Ideal) (φ := .f32) y (constant (F := Ideal) S_ .f32 0x00000000#32)
        reducesTo_S16x1x1_S_d0_1_2 h_S_) (constant (F := Ideal) S_ .f32 0x4C220000#32) i
      = Ideal.div (∑ bp : Fin 16, y (ix3 bp (0 : Fin 1) (0 : Fin 1))) (Ideal.ofBits .f32 0x4C220000#32) := by
  show Ideal.div (Host.reduceAdd (F := Ideal) (φ := .f32) y (constant (F := Ideal) S_ .f32 0x00000000#32)
    reducesTo_S16x1x1_S_d0_1_2 h_S_ i) (Ideal.ofBits .f32 0x4C220000#32) = _
  congr 1
  simp only [Host.reduceAdd, Ideal.hostReduceAdd_def]
  rw [Ideal.hostReduceAdd_total reducesTo_S16x1x1_S_d0_1_2 (fun b => b.elim0) y _ i]
  show Ideal.ofBits .f32 0x00000000#32 + _ = _
  rw [Ideal.ofBits_zero_f32, zero_add, sum16]

/-- The program's result: the sum of the sixteen entries of main_v42 over the literal 0x4C220000. -/
theorem v44_apply (W : Valuation τ sig (Elt Ideal)) (i : S_.Idx) :
    StableHlo.after (hostOps1 (F := Ideal)) W (Proc.devRef .tc main_v44) i
      = Ideal.div (∑ bp : Fin 16, W (Proc.devRef .tc main_v42) (ix3 bp (0 : Fin 1) (0 : Fin 1))) (Ideal.ofBits .f32 0x4C220000#32) := by
  show (StableHlo.after (hostOps1 (F := Ideal)) W (Proc.devRef .tc main_v44) : S_.Idx → EReal) i = _
  rw [v44_eq]
  exact total16 _ i

/-! ## The fifty operations before the call

Each of the four arguments goes through the same chain: viewed as [8,128,2304], divided by the square root of
its sum of squares over the 128 channels plus 1e-8, and converted to bf16. That chain, up to the conversion, is
literally the reference program's chain val_main_v8 (the side conditions are proofs, the shapes the same
literal shapes), so it is carried here as that one function and never opened. The student array main_v40 lays
the chains of arguments 0 and 1 end to end along the leading axis, the teacher array main_v41 those of
arguments 2 and 3. -/

/-- The student array: the converted chains of arguments 0 and 1, concatenated along axis 0. -/
theorem v40_eq (W : Valuation τ sig (Elt Ideal)) :
    (StableHlo.after (hostOps0 (F := Ideal)) W (Proc.devRef .tc main_v40) : S16x128x2304.Idx → EReal)
      = concatenate S16x128x2304 0
          [⟨S8x128x2304, truncf (F := Ideal) .bf16 (Cert.ReferenceIdeal.Read.val_main_v8 (F := Ideal) (W (Proc.devRef .tc main_arg0))) bitsLt_bf16_f32⟩,
           ⟨S8x128x2304, truncf (F := Ideal) .bf16 (Cert.ReferenceIdeal.Read.val_main_v8 (F := Ideal) (W (Proc.devRef .tc main_arg1))) bitsLt_bf16_f32⟩]
          concatenates_S8x128x2304_S8x128x2304_S16x128x2304_d0 := by
  after_results_simp
  rfl

/-- The teacher array: the converted chains of arguments 2 and 3, concatenated along axis 0. -/
theorem v41_eq (W : Valuation τ sig (Elt Ideal)) :
    (StableHlo.after (hostOps0 (F := Ideal)) W (Proc.devRef .tc main_v41) : S16x128x2304.Idx → EReal)
      = concatenate S16x128x2304 0
          [⟨S8x128x2304, truncf (F := Ideal) .bf16 (Cert.ReferenceIdeal.Read.val_main_v8 (F := Ideal) (W (Proc.devRef .tc main_arg2))) bitsLt_bf16_f32⟩,
           ⟨S8x128x2304, truncf (F := Ideal) .bf16 (Cert.ReferenceIdeal.Read.val_main_v8 (F := Ideal) (W (Proc.devRef .tc main_arg3))) bitsLt_bf16_f32⟩]
          concatenates_S8x128x2304_S8x128x2304_S16x128x2304_d0 := by
  after_results_simp
  rfl

/-- Two [8,128,2304] arrays laid end to end along the leading axis, read at an index: the first array at a
    leading coordinate below 8, the second, eight less, from 8 on. -/
theorem cat_apply {α : Type} (x y : S8x128x2304.Idx → α) (bp : Fin 16) (k : Fin 128) (n : Fin 2304) :
    concatenate S16x128x2304 0 [⟨S8x128x2304, x⟩, ⟨S8x128x2304, y⟩]
        concatenates_S8x128x2304_S8x128x2304_S16x128x2304_d0 (ix3 bp k n)
      = if h : bp.val < 8 then x (ix3 ⟨bp.val, h⟩ k n)
        else y (ix3 ⟨bp.val - 8, by have := bp.isLt; omega⟩ k n) := by
  split
  · next h =>
    exact concatenate_pair_apply_left (0 : Fin 3) x y _ (ix3 bp k n) rfl (ix3 ⟨bp.val, h⟩ k n) (fun b => by
      match b with
      | ⟨0, _⟩ => rfl
      | ⟨1, _⟩ => rfl
      | ⟨2, _⟩ => rfl)
  · next h =>
    exact concatenate_pair_apply_right (0 : Fin 3) x y _ (ix3 bp k n) rfl rfl
      (ix3 ⟨bp.val - 8, by have := bp.isLt; omega⟩ k n)
      (fun b hb => by
        match b with
        | ⟨0, _⟩ => exact absurd rfl hb
        | ⟨1, _⟩ => rfl
        | ⟨2, _⟩ => rfl)
      (by show bp.val - 8 + 8 = bp.val; omega)

/-- The student array at an index: the chain of argument 0 in the first eight batches, of argument 1 in the
    last eight (the conversion to bf16 is the identity on extended reals). -/
theorem v40_apply (W : Valuation τ sig (Elt Ideal)) (bp : Fin 16) (k : Fin 128) (n : Fin 2304) :
    StableHlo.after (hostOps0 (F := Ideal)) W (Proc.devRef .tc main_v40) (ix3 bp k n)
      = if h : bp.val < 8 then Cert.ReferenceIdeal.Read.val_main_v8 (F := Ideal) (W (Proc.devRef .tc main_arg0)) (ix3 ⟨bp.val, h⟩ k n)
        else Cert.ReferenceIdeal.Read.val_main_v8 (F := Ideal) (W (Proc.devRef .tc main_arg1)) (ix3 ⟨bp.val - 8, by have := bp.isLt; omega⟩ k n) := by
  show (StableHlo.after (hostOps0 (F := Ideal)) W (Proc.devRef .tc main_v40) : S16x128x2304.Idx → EReal) (ix3 bp k n) = _
  rw [v40_eq, cat_apply]
  split
  · exact truncf_apply _ _ _
  · exact truncf_apply _ _ _

/-- The teacher array at an index: the chain of argument 2 in the first eight batches, of argument 3 in the
    last eight. -/
theorem v41_apply (W : Valuation τ sig (Elt Ideal)) (bp : Fin 16) (k : Fin 128) (n : Fin 2304) :
    StableHlo.after (hostOps0 (F := Ideal)) W (Proc.devRef .tc main_v41) (ix3 bp k n)
      = if h : bp.val < 8 then Cert.ReferenceIdeal.Read.val_main_v8 (F := Ideal) (W (Proc.devRef .tc main_arg2)) (ix3 ⟨bp.val, h⟩ k n)
        else Cert.ReferenceIdeal.Read.val_main_v8 (F := Ideal) (W (Proc.devRef .tc main_arg3)) (ix3 ⟨bp.val - 8, by have := bp.isLt; omega⟩ k n) := by
  show (StableHlo.after (hostOps0 (F := Ideal)) W (Proc.devRef .tc main_v41) : S16x128x2304.Idx → EReal) (ix3 bp k n) = _
  rw [v41_eq, cat_apply]
  split
  · exact truncf_apply _ _ _
  · exact truncf_apply _ _ _

/-! ## The arguments

No operation before the call writes an argument of the program. -/

theorem arg0_kept0 (W : Valuation τ sig (Elt Ideal)) :
    StableHlo.after (hostOps0 (F := Ideal)) W (Proc.devRef .tc main_arg0) = W (Proc.devRef .tc main_arg0) := by
  after_results_simp
theorem arg1_kept0 (W : Valuation τ sig (Elt Ideal)) :
    StableHlo.after (hostOps0 (F := Ideal)) W (Proc.devRef .tc main_arg1) = W (Proc.devRef .tc main_arg1) := by
  after_results_simp
theorem arg2_kept0 (W : Valuation τ sig (Elt Ideal)) :
    StableHlo.after (hostOps0 (F := Ideal)) W (Proc.devRef .tc main_arg2) = W (Proc.devRef .tc main_arg2) := by
  after_results_simp
theorem arg3_kept0 (W : Valuation τ sig (Elt Ideal)) :
    StableHlo.after (hostOps0 (F := Ideal)) W (Proc.devRef .tc main_arg3) = W (Proc.devRef .tc main_arg3) := by
  after_results_simp

/-- The four arguments after the fifty operations are what they were. -/
theorem args_kept0 (W : Valuation τ sig (Elt Ideal)) :
    StableHlo.after (hostOps0 (F := Ideal)) W (Proc.devRef .tc main_arg0) = W (Proc.devRef .tc main_arg0)
    ∧ StableHlo.after (hostOps0 (F := Ideal)) W (Proc.devRef .tc main_arg1) = W (Proc.devRef .tc main_arg1)
    ∧ StableHlo.after (hostOps0 (F := Ideal)) W (Proc.devRef .tc main_arg2) = W (Proc.devRef .tc main_arg2)
    ∧ StableHlo.after (hostOps0 (F := Ideal)) W (Proc.devRef .tc main_arg3) = W (Proc.devRef .tc main_arg3) :=
  ⟨arg0_kept0 W, arg1_kept0 W, arg2_kept0 W, arg3_kept0 W⟩

end Cert.KernelIdeal.HostSide

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.RefValue.lean ====
/- The reference side of the certificate, read as one formula over the four normalised arrays, and the
   regrouping laws of finite sums, at this kernel's sizes, that the comparison with the kernel's tiled accumulation uses. -/
import proofs.«160600_j64037962383465_1_alg».proof.Proof.Gen.ReferenceIdeal.Read
import Idealize.ShloMosaic.Lib.ValueIdx
import Idealize.ShloMosaic.PureOps.Ideal.Laws
import proofs.«160600_j64037962383465_1_alg».proof.Proof.LibTileSum

noncomputable section

open scoped BigOperators

namespace Cert.ReferenceIdeal.RefValue

open Cert.ReferenceIdeal Idealize.ShloMosaic Idealize.ShloMosaic.ValueIdx Idealize.ShloMosaic.StableHlo
open Cert.Lib.TileSum

/-! ## The reference's value -/

/-- The sum over batch `b` and positions `n`, `m` of the absolute difference of the two Gram entries
    `∑ k, P[b,k,n] * P[b,k,m]` and `∑ k, Q[b,k,n] * Q[b,k,m]`. -/
def pairSum (P Q : S8x128x2304.Idx → EReal) : EReal :=
  ∑ b : Fin 8, ∑ n : Fin 2304, ∑ m : Fin 2304,
    FloatOps.absf (F := Ideal) (φ := .f32)
      ((∑ k : Fin 128, P (ix3 b k n) * P (ix3 b k m)) - (∑ k : Fin 128, Q (ix3 b k n) * Q (ix3 b k m)))

/-- The left operand index of the first Gram product at output position `(b, n, m)` and contraction position `k`. -/
theorem lidx_v9 (b : Fin 8) (n m : Fin 2304) (k : Fin 128) :
    Read.lidx_main_v9 (Read.idx_main_v10 (ix4 b (0 : Fin 1) n m)) k = ix3 b k n := by
  funext a; match a with | ⟨0, _⟩ => rfl | ⟨1, _⟩ => rfl | ⟨2, _⟩ => rfl
/-- The right operand index of the first Gram product. -/
theorem ridx_v9 (b : Fin 8) (n m : Fin 2304) (k : Fin 128) :
    Read.ridx_main_v9 (Read.idx_main_v10 (ix4 b (0 : Fin 1) n m)) k = ix3 b k m := by
  funext a; match a with | ⟨0, _⟩ => rfl | ⟨1, _⟩ => rfl | ⟨2, _⟩ => rfl
/-- The left operand index of the second Gram product. -/
theorem lidx_v20 (b : Fin 8) (n m : Fin 2304) (k : Fin 128) :
    Read.lidx_main_v20 (Read.idx_main_v21 (ix4 b (0 : Fin 1) n m)) k = ix3 b k n := by
  funext a; match a with | ⟨0, _⟩ => rfl | ⟨1, _⟩ => rfl | ⟨2, _⟩ => rfl
/-- The right operand index of the second Gram product. -/
theorem ridx_v20 (b : Fin 8) (n m : Fin 2304) (k : Fin 128) :
    Read.ridx_main_v20 (Read.idx_main_v21 (ix4 b (0 : Fin 1) n m)) k = ix3 b k m := by
  funext a; match a with | ⟨0, _⟩ => rfl | ⟨1, _⟩ => rfl | ⟨2, _⟩ => rfl
/-- The left operand index of the third Gram product. -/
theorem lidx_v35 (b : Fin 8) (n m : Fin 2304) (k : Fin 128) :
    Read.lidx_main_v35 (Read.idx_main_v36 (ix4 b (0 : Fin 1) n m)) k = ix3 b k n := by
  funext a; match a with | ⟨0, _⟩ => rfl | ⟨1, _⟩ => rfl | ⟨2, _⟩ => rfl
/-- The right operand index of the third Gram product. -/
theorem ridx_v35 (b : Fin 8) (n m : Fin 2304) (k : Fin 128) :
    Read.ridx_main_v35 (Read.idx_main_v36 (ix4 b (0 : Fin 1) n m)) k = ix3 b k m := by
  funext a; match a with | ⟨0, _⟩ => rfl | ⟨1, _⟩ => rfl | ⟨2, _⟩ => rfl
/-- The left operand index of the fourth Gram product. -/
theorem lidx_v46 (b : Fin 8) (n m : Fin 2304) (k : Fin 128) :
    Read.lidx_main_v46 (Read.idx_main_v47 (ix4 b (0 : Fin 1) n m)) k = ix3 b k n := by
  funext a; match a with | ⟨0, _⟩ => rfl | ⟨1, _⟩ => rfl | ⟨2, _⟩ => rfl
/-- The right operand index of the fourth Gram product. -/
theorem ridx_v46 (b : Fin 8) (n m : Fin 2304) (k : Fin 128) :
    Read.ridx_main_v46 (Read.idx_main_v47 (ix4 b (0 : Fin 1) n m)) k = ix3 b k m := by
  funext a; match a with | ⟨0, _⟩ => rfl | ⟨1, _⟩ => rfl | ⟨2, _⟩ => rfl

/-- The first mean's numerator: the sum over every index of `|sim(x0) - sim(x2)|` is `pairSum` of the two
    normalised arrays. -/
theorem sum_abs_02 (x0 x2 : (⟨S8x128x48x48, .f32⟩ : BufTy).Contents (Elt Ideal)) :
    ∑ j : S8x1x2304x2304.Idx, Read.val_main_v23 (F := Ideal) x0 x2 j
      = pairSum (Read.val_main_v8 (F := Ideal) x0) (Read.val_main_v19 (F := Ideal) x2) := by
  rw [sum_idx4u]
  unfold pairSum
  refine Finset.sum_congr rfl fun b _ => Finset.sum_congr rfl fun n _ => Finset.sum_congr rfl fun m _ => ?_
  rw [Read.val_main_v23_apply, Read.val_main_v22_apply, Read.val_main_v10_apply, Read.val_main_v21_apply,
    Read.val_main_v9_apply, Read.val_main_v20_apply]
  simp only [lidx_v9, ridx_v9, lidx_v20, ridx_v20]
  generalize Read.val_main_v8 (F := Ideal) x0 = P
  generalize Read.val_main_v19 (F := Ideal) x2 = Q
  rfl

/-- The second mean's numerator: the sum over every index of `|sim(x1) - sim(x3)|` is `pairSum` of the two
    normalised arrays. -/
theorem sum_abs_13 (x1 x3 : (⟨S8x128x48x48, .f32⟩ : BufTy).Contents (Elt Ideal)) :
    ∑ j : S8x1x2304x2304.Idx, Read.val_main_v49 (F := Ideal) x1 x3 j
      = pairSum (Read.val_main_v34 (F := Ideal) x1) (Read.val_main_v45 (F := Ideal) x3) := by
  rw [sum_idx4u]
  unfold pairSum
  refine Finset.sum_congr rfl fun b _ => Finset.sum_congr rfl fun n _ => Finset.sum_congr rfl fun m _ => ?_
  rw [Read.val_main_v49_apply, Read.val_main_v48_apply, Read.val_main_v36_apply, Read.val_main_v47_apply,
    Read.val_main_v35_apply, Read.val_main_v46_apply]
  simp only [lidx_v35, ridx_v35, lidx_v46, ridx_v46]
  generalize Read.val_main_v34 (F := Ideal) x1 = P
  generalize Read.val_main_v45 (F := Ideal) x3 = Q
  rfl

/-- THE REFERENCE'S VALUE: the loss is `pairSum` of the normalised first and third inputs divided by the element
    count, plus `pairSum` of the normalised second and fourth inputs divided by the element count. -/
theorem ref_value (x0 x1 x2 x3 : (⟨S8x128x48x48, .f32⟩ : BufTy).Contents (Elt Ideal)) (i : S_.Idx) :
    Read.val_main_v52 (F := Ideal) x0 x1 x2 x3 i
      = Ideal.div (pairSum (Read.val_main_v8 (F := Ideal) x0) (Read.val_main_v19 (F := Ideal) x2)) (Ideal.ofBits .f32 0x4C220000#32)
        + Ideal.div (pairSum (Read.val_main_v34 (F := Ideal) x1) (Read.val_main_v45 (F := Ideal) x3)) (Ideal.ofBits .f32 0x4C220000#32) := by
  rw [Read.val_main_v52_apply, Read.val_main_v25_apply, Read.val_main_v51_apply, Read.val_main_v24_apply,
    Read.val_main_v50_apply, Read.val_main_cst_3_apply, Read.val_main_cst_9_apply, Read.val_main_cst_4_apply,
    Read.val_main_cst_10_apply, sum_abs_02, sum_abs_13]
  simp only [Ideal.ofBits_def, Ideal.ofBits_zero_f32, zero_add, Ideal.addf_def, Ideal.hostDivf_def]

/-! ## Pure regrouping laws of finite sums, over any additive commutative monoid -/

section Laws
variable {M : Type*} [AddCommMonoid M]

/-- THE TILE LAW: summing a `2304 × 2304` table over its `81 = 9 × 9` tiles of `256 × 256` entries, tile `s` being
    row block `s / 9` and column block `s % 9`, is summing it over its rows and columns. -/
theorem sum_tiles (f : Fin 2304 → Fin 2304 → M) :
    ∑ s : Fin 81, ∑ r : Fin 256, ∑ l : Fin 256,
        f ⟨256 * (s.val / 9) + r.val, by have := s.isLt; have := r.isLt; omega⟩
          ⟨256 * (s.val % 9) + l.val, by have := s.isLt; have := l.isLt; omega⟩
      = ∑ n : Fin 2304, ∑ m : Fin 2304, f n m := by
  rw [sum_fin_tiles 9 9 (fun s : Fin 81 => ∑ r : Fin 256, ∑ l : Fin 256,
        f ⟨256 * (s.val / 9) + r.val, by have := s.isLt; have := r.isLt; omega⟩
          ⟨256 * (s.val % 9) + l.val, by have := s.isLt; have := l.isLt; omega⟩),
    sum_fin_tiles 9 256 (fun n : Fin 2304 => ∑ m : Fin 2304, f n m)]
  refine Finset.sum_congr rfl fun p _ => ?_
  rw [Finset.sum_comm]
  refine Finset.sum_congr rfl fun r _ => ?_
  rw [sum_fin_tiles 9 256 (fun m : Fin 2304 => f _ m)]
  refine Finset.sum_congr rfl fun q _ => Finset.sum_congr rfl fun l _ => ?_
  have hq : q.val < 9 := q.isLt
  have e1 : (9 * p.val + q.val) / 9 = p.val := by omega
  have e2 : (9 * p.val + q.val) % 9 = q.val := by omega
  exact congrArg₂ f (Fin.ext (by show 256 * ((9 * p.val + q.val) / 9) + r.val = 256 * p.val + r.val; rw [e1]))
    (Fin.ext (by show 256 * ((9 * p.val + q.val) % 9) + l.val = 256 * q.val + l.val; rw [e2]))

/-- THE BATCH LAW: a sum over sixteen batch slots is the sum over the first eight plus the sum over the last eight. -/
theorem sum_batches (g : Fin 16 → M) :
    ∑ bp : Fin 16, g bp
      = ∑ b : Fin 8, g ⟨b.val, by have := b.isLt; omega⟩ + ∑ b : Fin 8, g ⟨8 + b.val, by have := b.isLt; omega⟩ :=
  Fin.sum_univ_add (a := 8) (b := 8) g

end Laws

/-! ## The division by the element count -/

/-- The word `0x4C220000` denotes the real `42467328 = 8 · 2304 · 2304`, the number of entries of each difference array. -/
theorem ofBits_count : Ideal.ofBits .f32 0x4C220000#32 = ((42467328 : ℝ) : EReal) := by
  simp [Ideal.ofBits, Ideal.ieee, -EReal.coe_mul]; norm_num

/-- THE DIVISION LAW: dividing by the (positive, finite) element count distributes over a sum of extended reals. -/
theorem div_add_N (A B : EReal) :
    Ideal.div (A + B) (Ideal.ofBits .f32 0x4C220000#32)
      = Ideal.div A (Ideal.ofBits .f32 0x4C220000#32) + Ideal.div B (Ideal.ofBits .f32 0x4C220000#32) := by
  have hN : (42467328 : ℝ) ≠ 0 := by norm_num
  rw [ofBits_count, Ideal.div_coe hN, Ideal.div_coe hN, Ideal.div_coe hN]
  refine EReal.right_distrib_of_nonneg_of_ne_top ?_ (EReal.coe_ne_top _) A B
  exact EReal.coe_nonneg.mpr (by norm_num)

end Cert.ReferenceIdeal.RefValue

end
-- ==== Proof.KernelResult.lean ====
/-
  The kernel program's result at the extended reals is the reference's.

  The program's result is the sum over the 16 batches of the accumulated tile sums, divided by 8 * 2304 * 2304.
  A tile sum at tile (i, j) of batch bp is the sum, over the 256 x 256 positions (256 i + r, 256 j + l), of
  D bp n m = | sum_k S(bp,k,n) S(bp,k,m) - sum_k T(bp,k,n) T(bp,k,m) |, S and T the normalised student and teacher
  maps; the 81 tiles of a batch cover each position (n, m) once, so a batch contributes the sum of D bp over all
  (n, m). Batches 0..7 of S, T are the normalised first student and teacher arguments, batches 8..15 the second
  ones: the two halves are the reference's two sums of absolute differences, and division by a positive real
  distributes over their sum on the extended reals.
-/
import proofs.«160600_j64037962383465_1_alg».proof.Proof.FrameKI.Launch
import proofs.«160600_j64037962383465_1_alg».proof.Proof.FrameKI.Blocks
import proofs.«160600_j64037962383465_1_alg».proof.Proof.KernelValue
import proofs.«160600_j64037962383465_1_alg».proof.Proof.HostSide
import proofs.«160600_j64037962383465_1_alg».proof.Proof.RefValue

set_option maxRecDepth 16384

noncomputable section

namespace Cert.KernelIdeal.Hand

open Cert.KernelIdeal Cert.KernelIdeal.Gen Cert.KernelIdeal.PayIdeal
open Idealize.ShloMosaic Idealize.ShloMosaic.TcCoe Idealize.SL.Sem Idealize.ShloMosaic.ValueIdx
open Idealize.ShloMosaic.Pipeline (Dat)
open Cert.ReferenceIdeal.RefValue (pairSum sum_tiles sum_batches div_add_N ref_value)

/-- The absolute difference of the two similarity entries at (n, m) of batch bp. -/
def D (S T : S16x128x2304.Idx → EReal) (bp : Fin 16) (n m : Fin 2304) : EReal :=
  eabs ((∑ k : Fin 128, S (ix3 bp k n) * S (ix3 bp k m)) - (∑ k : Fin 128, T (ix3 bp k n) * T (ix3 bp k m)))

variable (m : (ℓ : Loc nD τ sig) → Buf (Elt Ideal) ℓ) (ρ : Dev nD → PrngReg)

/-- The normalised student maps and teacher maps as the call finds them. -/
abbrev Sarr (c : Dev nD) : S16x128x2304.Idx → EReal := V1 (F := Ideal) m ρ c main_v40
abbrev Tarr (c : Dev nD) : S16x128x2304.Idx → EReal := V1 (F := Ideal) m ρ c main_v41

/-- A tile's sum is the sum of D over the tile's 256 x 256 positions. -/
theorem tileAt_eq (c : Dev nD) (bp : Fin 16) (s : Fin 81) :
    tileAt (V1 (F := Ideal) m ρ) c (81 * bp.val + s.val)
      = ∑ r : Fin 256, ∑ l : Fin 256,
          D (Sarr m ρ c) (Tarr m ρ c) bp ⟨256 * (s.val / 9) + r.val, by have := s.isLt; have := r.isLt; omega⟩
            ⟨256 * (s.val % 9) + l.val, by have := s.isLt; have := l.isLt; omega⟩ := by
  have hN : cfg0.N = 1296 := N_0
  have h : 81 * bp.val + s.val < cfg0.N := by have := bp.isLt; have := s.isLt; omega
  have h1 : (81 * bp.val + s.val) / 81 = bp.val := by have := s.isLt; omega
  have h2 : (81 * bp.val + s.val) / 9 % 9 = s.val / 9 := by have := s.isLt; omega
  have h3 : (81 * bp.val + s.val) % 9 = s.val % 9 := by omega
  unfold tileAt; rw [dif_pos h]; unfold tileSum D
  simp only [iblk0_apply, iblk1_apply, iblk2_apply, iblk3_apply, h1, h2, h3, Fin.eta]

/-- The program's result: the batches' tile sums, summed and divided. -/
theorem result_sum (c : Dev nD) (i : S_.Idx) :
    W3 (F := Ideal) m ρ c (Proc.devRef .tc main_v44) i
      = Ideal.div (∑ bp : Fin 16, ∑ s : Fin 81, tileAt (V1 (F := Ideal) m ρ) c (81 * bp.val + s.val)) (Ideal.ofBits .f32 0x4C220000#32) := by
  have hN : cfg0.N = 1296 := N_0
  have key : ((∑ bp : Fin 16, W2 (F := Ideal) m ρ c (Proc.devRef .tc main_v42) (ix3 bp (0 : Fin 1) (0 : Fin 1))) : EReal)
      = ∑ bp : Fin 16, ∑ s : Fin 81, tileAt (V1 (F := Ideal) m ρ) c (81 * bp.val + s.val) := by
    refine Finset.sum_congr rfl fun bp _ => ?_
    rw [W2_out]; unfold outArr
    rw [out_apply, pay1_ideal, acc_sum (V1 (F := Ideal) m ρ) c bp.val bp.isLt _ 80 (by omega) (by have := bp.isLt; omega),
      Finset.sum_range]
  rw [show W3 (F := Ideal) m ρ c (Proc.devRef .tc main_v44) i
        = StableHlo.after (hostOps1 (F := Ideal)) (W2 (F := Ideal) m ρ c) (Proc.devRef .tc main_v44) i from rfl,
    HostSide.v44_apply, key]

/-- Batches 0..7 of the normalised maps are the first student / teacher arguments', batches 8..15 the second ones'. -/
theorem S_lo (c : Dev nD) (b : Fin 8) (k : Fin 128) (n : Fin 2304) :
    Sarr m ρ c (ix3 (⟨b.val, by have := b.isLt; omega⟩ : Fin 16) k n)
      = Cert.ReferenceIdeal.Read.val_main_v8 (F := Ideal) (m ((c.tc : Thread nD τ).loc main_arg0)) (ix3 b k n) :=
  (HostSide.v40_apply (W0 (F := Ideal) m ρ c) ⟨b.val, by have := b.isLt; omega⟩ k n).trans (by rw [dif_pos (show b.val < 8 from b.isLt)])
theorem S_hi (c : Dev nD) (b : Fin 8) (k : Fin 128) (n : Fin 2304) :
    Sarr m ρ c (ix3 (⟨8 + b.val, by have := b.isLt; omega⟩ : Fin 16) k n)
      = Cert.ReferenceIdeal.Read.val_main_v8 (F := Ideal) (m ((c.tc : Thread nD τ).loc main_arg1)) (ix3 b k n) :=
  (HostSide.v40_apply (W0 (F := Ideal) m ρ c) ⟨8 + b.val, by have := b.isLt; omega⟩ k n).trans (by
    rw [dif_neg (show ¬(8 + b.val < 8) by omega)]
    exact congrArg (fun x : Fin 8 => Cert.ReferenceIdeal.Read.val_main_v8 (F := Ideal) (m ((c.tc : Thread nD τ).loc main_arg1)) (ix3 x k n)) (Fin.ext (by simp)))
theorem T_lo (c : Dev nD) (b : Fin 8) (k : Fin 128) (n : Fin 2304) :
    Tarr m ρ c (ix3 (⟨b.val, by have := b.isLt; omega⟩ : Fin 16) k n)
      = Cert.ReferenceIdeal.Read.val_main_v8 (F := Ideal) (m ((c.tc : Thread nD τ).loc main_arg2)) (ix3 b k n) :=
  (HostSide.v41_apply (W0 (F := Ideal) m ρ c) ⟨b.val, by have := b.isLt; omega⟩ k n).trans (by rw [dif_pos (show b.val < 8 from b.isLt)])
theorem T_hi (c : Dev nD) (b : Fin 8) (k : Fin 128) (n : Fin 2304) :
    Tarr m ρ c (ix3 (⟨8 + b.val, by have := b.isLt; omega⟩ : Fin 16) k n)
      = Cert.ReferenceIdeal.Read.val_main_v8 (F := Ideal) (m ((c.tc : Thread nD τ).loc main_arg3)) (ix3 b k n) :=
  (HostSide.v41_apply (W0 (F := Ideal) m ρ c) ⟨8 + b.val, by have := b.isLt; omega⟩ k n).trans (by
    rw [dif_neg (show ¬(8 + b.val < 8) by omega)]
    exact congrArg (fun x : Fin 8 => Cert.ReferenceIdeal.Read.val_main_v8 (F := Ideal) (m ((c.tc : Thread nD τ).loc main_arg3)) (ix3 x k n)) (Fin.ext (by simp)))

set_option maxHeartbeats 4000000 in
/-- The reference spells the one normalisation four times; the four are one function. -/
theorem nrm19 : Cert.ReferenceIdeal.Read.val_main_v19 (F := Ideal) = Cert.ReferenceIdeal.Read.val_main_v8 (F := Ideal) := rfl
set_option maxHeartbeats 4000000 in
theorem nrm34 : Cert.ReferenceIdeal.Read.val_main_v34 (F := Ideal) = Cert.ReferenceIdeal.Read.val_main_v8 (F := Ideal) := rfl
set_option maxHeartbeats 4000000 in
theorem nrm45 : Cert.ReferenceIdeal.Read.val_main_v45 (F := Ideal) = Cert.ReferenceIdeal.Read.val_main_v8 (F := Ideal) := rfl

/-- Batches 0..7: the first pair's sum of absolute differences. -/
theorem lo_eq (c : Dev nD) :
    (∑ b : Fin 8, ∑ n : Fin 2304, ∑ q : Fin 2304, D (Sarr m ρ c) (Tarr m ρ c) ⟨b.val, by have := b.isLt; omega⟩ n q)
      = pairSum (Cert.ReferenceIdeal.Read.val_main_v8 (F := Ideal) (m ((c.tc : Thread nD τ).loc main_arg0)))
          (Cert.ReferenceIdeal.Read.val_main_v8 (F := Ideal) (m ((c.tc : Thread nD τ).loc main_arg2))) := by
  unfold pairSum D
  refine Finset.sum_congr rfl fun b _ => Finset.sum_congr rfl fun n _ => Finset.sum_congr rfl fun q _ => ?_
  show eabs _ = eabs _
  refine congrArg eabs (congrArg₂ (· - ·) (Finset.sum_congr rfl fun k _ => ?_) (Finset.sum_congr rfl fun k _ => ?_))
  · rw [S_lo, S_lo]
  · rw [T_lo, T_lo]

/-- Batches 8..15: the second pair's. -/
theorem hi_eq (c : Dev nD) :
    (∑ b : Fin 8, ∑ n : Fin 2304, ∑ q : Fin 2304, D (Sarr m ρ c) (Tarr m ρ c) ⟨8 + b.val, by have := b.isLt; omega⟩ n q)
      = pairSum (Cert.ReferenceIdeal.Read.val_main_v8 (F := Ideal) (m ((c.tc : Thread nD τ).loc main_arg1)))
          (Cert.ReferenceIdeal.Read.val_main_v8 (F := Ideal) (m ((c.tc : Thread nD τ).loc main_arg3))) := by
  unfold pairSum D
  refine Finset.sum_congr rfl fun b _ => Finset.sum_congr rfl fun n _ => Finset.sum_congr rfl fun q _ => ?_
  show eabs _ = eabs _
  refine congrArg eabs (congrArg₂ (· - ·) (Finset.sum_congr rfl fun k _ => ?_) (Finset.sum_congr rfl fun k _ => ?_))
  · rw [S_hi, S_hi]
  · rw [T_hi, T_hi]

/-- Every tile sum is a double sum of D; the 81 tiles of a batch cover the 2304 x 2304 positions once; the 16 batches
    are the two pairs' 8 and 8. -/
theorem tiles_eq (c : Dev nD) :
    (∑ bp : Fin 16, ∑ s : Fin 81, tileAt (V1 (F := Ideal) m ρ) c (81 * bp.val + s.val))
      = pairSum (Cert.ReferenceIdeal.Read.val_main_v8 (F := Ideal) (m ((c.tc : Thread nD τ).loc main_arg0)))
          (Cert.ReferenceIdeal.Read.val_main_v8 (F := Ideal) (m ((c.tc : Thread nD τ).loc main_arg2)))
        + pairSum (Cert.ReferenceIdeal.Read.val_main_v8 (F := Ideal) (m ((c.tc : Thread nD τ).loc main_arg1)))
          (Cert.ReferenceIdeal.Read.val_main_v8 (F := Ideal) (m ((c.tc : Thread nD τ).loc main_arg3))) := by
  have hcover : (∑ bp : Fin 16, ∑ s : Fin 81, tileAt (V1 (F := Ideal) m ρ) c (81 * bp.val + s.val))
      = ∑ bp : Fin 16, ∑ n : Fin 2304, ∑ q : Fin 2304, D (Sarr m ρ c) (Tarr m ρ c) bp n q :=
    Finset.sum_congr rfl fun bp _ => (Finset.sum_congr rfl fun s _ => tileAt_eq m ρ c bp s).trans (sum_tiles (D (Sarr m ρ c) (Tarr m ρ c) bp))
  rw [hcover, sum_batches, lo_eq, hi_eq]

/-- The program's result is the reference's value of the four arguments. -/
theorem result_eq (c : Dev nD) :
    W3 (F := Ideal) m ρ c (Proc.devRef .tc main_v44)
      = Cert.ReferenceIdeal.Read.val_main_v52 (F := Ideal) (m ((c.tc : Thread nD τ).loc main_arg0)) (m ((c.tc : Thread nD τ).loc main_arg1))
          (m ((c.tc : Thread nD τ).loc main_arg2)) (m ((c.tc : Thread nD τ).loc main_arg3)) := by
  funext i
  rw [result_sum, tiles_eq, div_add_N, ref_value, nrm19, nrm34, nrm45]

end Cert.KernelIdeal.Hand

end
-- ==== Proof.lean ====
/-
  The certificate of the spatial-similarity L1 loss kernel against its reference.

  Both programs normalise each of four [8,128,48,48] feature maps over the channel axis (x / (sqrt(sum_c x^2) + eps),
  after flattening the spatial axes to 2304 positions), form for every batch entry the 2304 x 2304 matrix of inner
  products between positions, and sum the absolute differences between the student's and the teacher's matrices.
  The reference does this for the two (student, teacher) pairs separately, divides each sum by 8 * 2304 * 2304 and
  adds the quotients. The kernel stacks the two pairs into 16 batch entries, walks each entry's matrix in 9 x 9 tiles
  of 256 x 256, accumulates the tiles' sums in a scalar, sums the 16 scalars and divides once.

  Over the extended reals the two results are equal: the tiles cover each matrix position once, addition is
  commutative and associative, and division by a positive real distributes over a sum. No finiteness is needed.

  The frames: the kernel's pipeline reads each of its two stacked arrays through two windows, so each array's
  ownership is dealt to the two windows in halves at the call's entry and reassembled at its exit.
-/
import proofs.«160600_j64037962383465_1_alg».proof.Defs
import proofs.«160600_j64037962383465_1_alg».proof.Proof.Gen.Kernel
import proofs.«160600_j64037962383465_1_alg».proof.Proof.Gen.KernelIdeal
import proofs.«160600_j64037962383465_1_alg».proof.Proof.Gen.ReferenceIdeal
import proofs.«160600_j64037962383465_1_alg».proof.Proof.Gen.Pre_finite_inputs
import proofs.«160600_j64037962383465_1_alg».proof.Proof.FrameK.Launch
import proofs.«160600_j64037962383465_1_alg».proof.Proof.FrameKI.Launch
import proofs.«160600_j64037962383465_1_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the same scalar. -/
theorem algebraic : Cert.algebraic_KernelIdeal_ReferenceIdeal := by
  intro m ρ m' ρ' _ hagree
  refine ⟨fun c => Cert.KernelIdeal.Hand.W3 (F := Ideal) m ρ c (Proc.devRef .tc Cert.KernelIdeal.main_v44), ?_, ?_⟩
  · exact (θ_run Cert.KernelIdeal.defs _ _).mono (fun r h c =>
      ⟨h c _ (Cert.KernelIdeal.Hand.mem_uc Cert.KernelIdeal.main_v44 (by decide)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2]
    exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
